-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x32 : Shape := ⟨2, ![800000, 32]⟩
abbrev S128x128 : Shape := ⟨2, ![128, 128]⟩
abbrev S128 : Shape := ⟨1, ![128]⟩
abbrev S32x128 : Shape := ⟨2, ![32, 128]⟩
abbrev S256x128 : Shape := ⟨2, ![256, 128]⟩
abbrev S128x1 : Shape := ⟨2, ![128, 1]⟩
abbrev S1 : Shape := ⟨1, ![1]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S128 .f32) (main_arg8 : FVec F S256x128 .f32) (main_arg9 : FVec F S128 .f32) (main_arg10 : FVec F S128x1 .f32) (main_arg11 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_v48 main_v49 main_v50

def fn_part1 {F : FTy → Type} [FloatOps F] (main_arg4 : FVec F S32x128 .f32) (main_arg5 : FVec F S128 .f32) (main_arg6 : FVec F S256x128 .f32) (main_arg7 : FVec F S128 .f32) (main_arg8 : FVec F S256x128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S32x128 .f32 := Host.absf main_arg4
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S800000x32 .f32) (main_arg2 : FVec F S128x128 .f32) (main_arg3 : FVec F S128 .f32) (main_arg4 : FVec F S32x128 .f32) (main_arg5 : FVec F S128 .f32) (main_arg6 : FVec F S256x128 .f32) (main_arg7 : FVec F S128 .f32) (main_arg8 : FVec F S256x128 .f32) (main_arg9 : FVec F S128 .f32) (main_arg10 : FVec F S128x1 .f32) (main_arg11 : FVec F S1 .f32) (main_arg12 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S800000x32 : Shape := ⟨2, ![800000, 32]⟩
abbrev S128x128 : Shape := ⟨2, ![128, 128]⟩
abbrev S128 : Shape := ⟨1, ![128]⟩
abbrev S32x128 : Shape := ⟨2, ![32, 128]⟩
abbrev S256x128 : Shape := ⟨2, ![256, 128]⟩
abbrev S128x1 : Shape := ⟨2, ![128, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S1x128 : Shape := ⟨2, ![1, 128]⟩
abbrev S5000x128 : Shape := ⟨2, ![5000, 128]⟩
abbrev S800000x128 : Shape := ⟨2, ![800000, 128]⟩
abbrev S10000x32 : Shape := ⟨2, ![10000, 32]⟩
abbrev S10000x128 : Shape := ⟨2, ![10000, 128]⟩
abbrev S_ : Shape := ⟨0, ![]⟩
abbrev S800000x1 : Shape := ⟨2, ![800000, 1]⟩
abbrev S1x1 : Shape := ⟨2, ![1, 1]⟩
abbrev S50000x1 : Shape := ⟨2, ![50000, 1]⟩
abbrev S5000x1 : Shape := ⟨2, ![5000, 1]⟩
abbrev S50000 : Shape := ⟨1, ![50000]⟩

abbrev nBuf : Space → Nat
  | .hbm => 74
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S128x128, .f32⟩
  | .hbm, ⟨3, _⟩ => ⟨S128, .f32⟩
  | .hbm, ⟨4, _⟩ => ⟨S32x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S2x800000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S1x128, .f32⟩
  | .hbm, ⟨18, _⟩ => ⟨S50000x128, .f32⟩
  | .hbm, ⟨19, _⟩ => ⟨S1x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S128x128, .f32⟩
  | .hbm, ⟨39, _⟩ => ⟨S128x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S128x128, .f32⟩
  | .hbm, ⟨56, _⟩ => ⟨S128x128, .f32⟩
  | .hbm, ⟨57, _⟩ => ⟨S1x128, .f32⟩
  | .hbm, ⟨58, _⟩ => ⟨S1x1, .f32⟩
  | .hbm, ⟨59, _⟩ => ⟨S50000x1, .f32⟩
  | .hbm, ⟨60, _⟩ => ⟨S50000, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1, .f32⟩
  | .hbm, ⟨66, _⟩ => ⟨S50000, .f32⟩
  | .hbm, ⟨67, _⟩ => ⟨S50000, .f32⟩
  | .hbm, ⟨68, _⟩ => ⟨S50000, .f32⟩
  | .hbm, ⟨69, _⟩ => ⟨S_, .f32⟩
  | .hbm, ⟨70, _⟩ => ⟨S_, .f32⟩
  | .hbm, ⟨71, _⟩ => ⟨S1, .f32⟩
  | .hbm, ⟨72, _⟩ => ⟨S50000, .f32⟩
  | .hbm, ⟨73, _⟩ => ⟨S50000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S10000x32, .f32⟩
  | .local _ .vmem, ⟨7, _⟩ => ⟨S10000x32, .f32⟩
  | .local _ .vmem, ⟨8, _⟩ => ⟨S32x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S128x1, .f32⟩
  | .local _ .vmem, ⟨29, _⟩ => ⟨S1x1, .f32⟩
  | .local _ .vmem, ⟨30, _⟩ => ⟨S5000x1, .f32⟩
  | .local _ .vmem, ⟨31, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg7_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem7_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S10000x32_S10000x32_0_0 : ∀ a, (![0, 0] : Fin 2 → Nat) a + S10000x32.size a ≤ S10000x32.size a
  h_S10000x32 : 0 < S10000x32.numel
  inb_S32x128_S32x128_0_0 : ∀ a, (![0, 0] : Fin 2 → Nat) a + S32x128.size a ≤ S32x128.size a
  h_S32x128 : 0 < S32x128.numel
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S_S800000 : S_.BroadcastsInDim S800000 (![] : Fin 0 → Fin S800000.rank)
  slices_S256x128_S128x128_0_0 : S256x128.Slices ![0, 0] S128x128
  slices_S256x128_S128x128_128_0 : S256x128.Slices ![128, 0] S128x128
  shapeCasts_S5000x128_S5000x128 : S5000x128.ShapeCasts S5000x128
  shapeCasts_S128x128_S128x128 : S128x128.ShapeCasts S128x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  reducesTo_S50000_S_d0 : S50000.ReducesTo [0] S_
  h_S_ : 0 < S_.numel
  bcast_S_S1 : S_.BroadcastsInDim S1 (![] : Fin 0 → Fin S1.rank)
  bcast_S1_S50000_0 : S1.BroadcastsInDim S50000 (![0] : Fin 1 → Fin S50000.rank)
  dot_S5000x128_S128x128_S5000x128_1_0_0_1_n_n_wf : DotDims.WF S5000x128 S128x128 S5000x128 [1] [0] [0] [1] [] []
  dot_S10000x32_S32x128_S10000x128_1_0_0_1_n_n_wf : DotDims.WF S10000x32 S32x128 S10000x128 [1] [0] [0] [1] [] []
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S800000x32.size a
  hwx1_0 : ∀ i : grid1.Coords, EltTy.bits .f32 = 32 ∨ (Rect.block (s := S800000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S32x128.size a
  hwx1_1 : ∀ i : grid1.Coords, EltTy.bits .f32 = 32 ∨ (Rect.block (s := S32x128) S32x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S800000x128.size a
  hwx1_3 : ∀ i : grid1.Coords, EltTy.bits .f32 = 32 ∨ (Rect.block (s := S800000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x1.size a ≤ S50000x1.size a
  hwx3_7 : ∀ i : grid3.Coords, EltTy.bits .f32 = 32 ∨ (Rect.block (s := S50000x1) S5000x1.size (cc3_transform_7 i) (hinb3_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v20) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v24) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v34) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v38) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v39) S5000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000x32 : Shape := ⟨2, ![800000, 32]⟩
abbrev S128x128 : Shape := ⟨2, ![128, 128]⟩
abbrev S128 : Shape := ⟨1, ![128]⟩
abbrev S32x128 : Shape := ⟨2, ![32, 128]⟩
abbrev S256x128 : Shape := ⟨2, ![256, 128]⟩
abbrev S128x1 : Shape := ⟨2, ![128, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x128 : Shape := ⟨2, ![800000, 128]⟩
abbrev S800000x1 : Shape := ⟨2, ![800000, 1]⟩
abbrev S50000x256 : Shape := ⟨2, ![50000, 256]⟩
abbrev S50000x1 : Shape := ⟨2, ![50000, 1]⟩
abbrev S1x1 : Shape := ⟨2, ![1, 1]⟩
abbrev S50000 : Shape := ⟨1, ![50000]⟩

abbrev nBuf : Space → Nat
  | .hbm => 99
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S128x128, .f32⟩
  | .hbm, ⟨3, _⟩ => ⟨S128, .f32⟩
  | .hbm, ⟨4, _⟩ => ⟨S32x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S2x800000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S_, .f32⟩
  | .hbm, ⟨22, _⟩ => ⟨S50000x128, .f32⟩
  | .hbm, ⟨23, _⟩ => ⟨S50000x128, .f32⟩
  | .hbm, ⟨24, _⟩ => ⟨S800000x128, .f32⟩
  | .hbm, ⟨25, _⟩ => ⟨S1x128, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S800000x128, .f32⟩
  | .hbm, ⟨30, _⟩ => ⟨S800000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x256, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S50000x256, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S50000x1, .f32⟩
  | .hbm, ⟨82, _⟩ => ⟨S1x1, .f32⟩
  | .hbm, ⟨83, _⟩ => ⟨S50000x1, .f32⟩
  | .hbm, ⟨84, _⟩ => ⟨S50000x1, .f32⟩
  | .hbm, ⟨85, _⟩ => ⟨S50000, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S1, .f32⟩
  | .hbm, ⟨91, _⟩ => ⟨S50000, .f32⟩
  | .hbm, ⟨92, _⟩ => ⟨S50000, .f32⟩
  | .hbm, ⟨93, _⟩ => ⟨S50000, .f32⟩
  | .hbm, ⟨94, _⟩ => ⟨S_, .f32⟩
  | .hbm, ⟨95, _⟩ => ⟨S_, .f32⟩
  | .hbm, ⟨96, _⟩ => ⟨S1, .f32⟩
  | .hbm, ⟨97, _⟩ => ⟨S50000, .f32⟩
  | .hbm, ⟨98, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_cst : Ref sig .tc := ⟨.hbm, 28, rfl⟩
abbrev main_call1_v0 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_1 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call2_cst : Ref sig .tc := ⟨.hbm, 53, rfl⟩
abbrev main_call2_v0 : Ref sig .tc := ⟨.hbm, 54, rfl⟩
abbrev main_v32 : Ref sig .tc := ⟨.hbm, 55, rfl⟩
abbrev main_c_2 : Ref sig .tc := ⟨.hbm, 56, rfl⟩
abbrev main_v33 : Ref sig .tc := ⟨.hbm, 57, rfl⟩
abbrev main_v34 : Ref sig .tc := ⟨.hbm, 58, rfl⟩
abbrev main_c_3 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call3_cst : Ref sig .tc := ⟨.hbm, 78, rfl⟩
abbrev main_call3_v0 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_cst_7 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_8 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S50000x128_S50000x128_S50000x256_d1 : Shape.Concatenates [S50000x128, S50000x128] S50000x256 1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  reducesTo_S50000_S_d0 : S50000.ReducesTo [0] S_
  h_S_ : 0 < S_.numel
  bcast_S_S1 : S_.BroadcastsInDim S1 (![] : Fin 0 → Fin S1.rank)
  bcast_S1_S50000_0 : S1.BroadcastsInDim S50000 (![0] : Fin 1 → Fin S50000.rank)
  dot_S50000x128_S128x128_S50000x128_1_0_0_1_n_n_wf : DotDims.WF S50000x128 S128x128 S50000x128 [1] [0] [0] [1] [] []
  dot_S800000x32_S32x128_S800000x128_1_0_0_1_n_n_wf : DotDims.WF S800000x32 S32x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x1_S50000x1_1_0_0_1_n_n_wf : DotDims.WF S50000x128 S128x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KRun.lean ====
/-
  The idealized kernel's whole run with its result named.

  @main is four launched regions among five stretches of host operations.  Its frame follows the
  buffer contents from boundary to boundary: a stretch of host operations applies its operations'
  functions to the contents it starts from, a region replaces each of its arrays by what its grid
  points' write-backs leave and keeps every other buffer.  The run below is that same walk, read at
  one more buffer: besides the argument arrays (which nothing writes) it states what the RESULT
  buffer holds in the last boundary's contents.  What those contents are, as a function of the
  arguments, is the business of the modules that import this one.
-/
import proofs.«150780_j73443940762207_2_alg».proof.Proof.KernelIdealFrameP

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v50) = W9 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v50 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.KRun

end
-- ==== Proof.RefLayers.lean ====
/-
  The reference's two graph-convolution layers and its output projection as functions of ARRAYS.

  The reference computes each graph-convolution layer as relu(concat(m_x, m_e) · W + b): the two aggregated
  arrays joined along their columns, one product against the whole [256, 128] weight matrix, the bias vector spread
  over the rows, clamped below at zero; and its scores as x · W_out + b_out.  Its read-back stages are functions of
  the program's arguments; here the same terms are named as functions of the arrays they combine, so that a block of
  the kernel can be compared with them whatever those arrays are.  The stage equations hold by unfolding.
-/
import proofs.«150780_j73443940762207_2_alg».proof.Proof.Gen.ReferenceIdeal.Read

noncomputable section

namespace Cert.ReferenceIdeal.Layers

open Cert.ReferenceIdeal Cert.ReferenceIdeal.Gen Cert.ReferenceIdeal.Read Idealize.ShloMosaic

variable {F : FTy → Type} [FloatOps F]

/-- One graph-convolution layer: relu(concat(A, E) · W + b). -/
def layer (A : (⟨S50000x128, .f32⟩ : BufTy).Contents (Elt F)) (E : (⟨S50000x128, .f32⟩ : BufTy).Contents (Elt F)) (W : (⟨S256x128, .f32⟩ : BufTy).Contents (Elt F)) (b : (⟨S128, .f32⟩ : BufTy).Contents (Elt F)) : (⟨S50000x128, .f32⟩ : BufTy).Contents (Elt F) :=
  maximumf
    (addf
      (Host.dotGeneral dot_S50000x256_S256x128_S50000x128_1_0_0_1_n_n none
        (concatenate S50000x256 1 [⟨S50000x128, A⟩, ⟨S50000x128, E⟩] concatenates_S50000x128_S50000x128_S50000x256_d1) W)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The output projection: X · w + b, one column. -/
def proj (X : (⟨S50000x128, .f32⟩ : BufTy).Contents (Elt F)) (w : (⟨S128x1, .f32⟩ : BufTy).Contents (Elt F)) (b : (⟨S1, .f32⟩ : BufTy).Contents (Elt F)) : (⟨S50000x1, .f32⟩ : BufTy).Contents (Elt F) :=
  addf (Host.dotGeneral dot_S50000x128_S128x1_S50000x1_1_0_0_1_n_n none X w)
    (broadcastInDim S50000x1 ![0, 1] bcast_S1x1_S50000x1_0_1 (broadcastInDim S1x1 ![1] bcast_S1_S1x1_1 b))

variable (x0 : (⟨S50000x128, .f32⟩ : BufTy).Contents (Elt F)) (x1 : (⟨S800000x32, .f32⟩ : BufTy).Contents (Elt F)) (x2 : (⟨S128x128, .f32⟩ : BufTy).Contents (Elt F)) (x3 : (⟨S128, .f32⟩ : BufTy).Contents (Elt F))
  (x4 : (⟨S32x128, .f32⟩ : BufTy).Contents (Elt F)) (x5 : (⟨S128, .f32⟩ : BufTy).Contents (Elt F)) (x6 : (⟨S256x128, .f32⟩ : BufTy).Contents (Elt F)) (x7 : (⟨S128, .f32⟩ : BufTy).Contents (Elt F)) (x8 : (⟨S256x128, .f32⟩ : BufTy).Contents (Elt F))
  (x9 : (⟨S128, .f32⟩ : BufTy).Contents (Elt F)) (x10 : (⟨S128x1, .f32⟩ : BufTy).Contents (Elt F)) (x11 : (⟨S1, .f32⟩ : BufTy).Contents (Elt F)) (x12 : (⟨S2x800000, .i32⟩ : BufTy).Contents (Elt F))

/-- The first layer's stage is the layer of the two aggregated arrays. -/
theorem v32_eq : val_main_v32 (F := F) x0 x1 x2 x3 x4 x5 x6 x7 x12
    = layer (val_main_v23 (F := F) x0 x2 x3 x12) (val_main_v26 (F := F) x1 x4 x5 x12) x6 x7 := rfl

/-- The second layer's stage is the layer of its two aggregated arrays. -/
theorem v51_eq : val_main_v51 (F := F) x0 x1 x2 x3 x4 x5 x6 x7 x8 x9 x12
    = layer (val_main_v42 (F := F) x0 x1 x2 x3 x4 x5 x6 x7 x12) (val_main_v45 (F := F) x1 x4 x5 x12) x8 x9 := rfl

/-- The scores' stage is the projection of the second layer's stage. -/
theorem v55_eq : val_main_v55 (F := F) x0 x1 x2 x3 x4 x5 x6 x7 x8 x9 x10 x11 x12
    = proj (val_main_v51 (F := F) x0 x1 x2 x3 x4 x5 x6 x7 x8 x9 x12) x10 x11 := rfl

/-- The edge aggregate the second layer recomputes is the one the first layer used. -/
theorem v45_eq : val_main_v45 (F := F) x1 x4 x5 x12 = val_main_v26 (F := F) x1 x4 x5 x12 := rfl

end Cert.ReferenceIdeal.Layers

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«150780_j73443940762207_2_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibDotBlocks.lean ====
/-
  A matrix product computed on blocks of its operands is the whole product there.

  At the ideal values — floats extended reals, every operation exact — a `tpu.matmul` into the zero
  accumulator and the host's `dot_general`, both with the plain dimension numbers "rows × contraction
  times contraction × columns", are the same sum over the contraction index.  So a block of rows of the
  left operand times a block of columns of the right operand, multiplied on the matrix unit, gives at its
  local index (p, q) the whole product's entry at (r, c), as soon as row p of the left block is row r of
  the whole left operand and column q of the right block is column c of the whole right operand.  The
  contraction is not blocked; no finiteness is used: both sides are one and the same sum.
-/
import proofs.«150780_j73443940762207_2_alg».proof.Proof.LibRowBlocks

noncomputable section

namespace Cert.Lib.DotBlocks

open Idealize.ShloMosaic Idealize.ShloMosaic.ValueIdx Cert.Lib.PlainDot Cert.Lib.RowBlocks

variable {M K N : Nat}

/-- A block of B rows of the left operand times a block of D columns of the right operand, into the zero
    accumulator: its entry at the local index (p, q) is the whole product's entry at (r, c), when row p of
    the left block is row r of the whole left operand and column q of the right block is column c of the
    whole right operand (the operands' float formats may differ between the blocks and the whole: at the
    ideal values every format is the extended reals). -/
theorem matmul_block_eq_dotGeneral {B D : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, D]⟩ φ₂) (p : Fin B) (q : Fin D) (r : Fin M) (c : Fin N)
    (hx : ∀ k : Fin K, (xb (ix2 p k) : EReal) = x (ix2 r k)) (hw : ∀ k : Fin K, (wb (ix2 k q) : EReal) = w (ix2 k c)) :
    matmul (DotDims.plain B K D) prec xb wb (constant (F := Ideal) ⟨2, ![B, D]⟩ .f32 0x00000000#32) (ix2 p q)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.DotBlocks

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibRowBroadcast.lean ====
/-
  The host's broadcasts of a row and of a scalar, read at an index, generic in the extents.

  A row [1, C] broadcast onto axes 0, 1 of [R, C] reads, at (r, c), the row at (0, c): the same bias is
  added to every row.  A scalar broadcast to any shape reads the scalar everywhere.
-/
import Idealize.ShloMosaic.Lib.ValueIdx
import Idealize.ShloMosaic.Lib.Pipeline.Value

noncomputable section

namespace Cert.Lib.RowBroadcast

open Idealize.ShloMosaic Idealize.ShloMosaic.ValueIdx

variable {α : Type}

/-- A row [1, C] broadcast onto axes 0, 1 of [R, C], read at (r, c), is the row at (0, c). -/
theorem broadcastInDim_row_apply {R C : Nat} (x : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim ⟨2, ![R, C]⟩ (![0, 1] : Fin 2 → Fin 2) h x (ix2 r c) = x (ix2 0 c) :=
  broadcastInDim_apply (![0, 1] : Fin 2 → Fin 2) h x (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A scalar broadcast to any shape reads the scalar at every index. -/
theorem broadcastInDim_scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply (![] : Fin 0 → Fin t.rank) h x j k (fun a => a.elim0)

end Cert.Lib.RowBroadcast

end
-- ==== Proof.LibDenseLayers.lean ====
/-
  Dense layers on the matrix unit, block by block, against the host's whole-array spelling.

  At the ideal values — floats extended reals, every operation exact, a change of float format the identity —
  for any extents:

  * an affine map computed on a block of B rows, `(block of x) · w + (row b spread over the rows)` with the
    operands narrowed to a smaller float format and the product taken into the zero accumulator, read at the
    block-local index (p, q), is the host's `x · w + b` read at (r, q), when row p of the block is row r of x;
  * clamping below at a constant word is the same function on both sides;
  * a product against a matrix [H1 + H2, N] of two arrays joined along their columns is the sum of the two
    products against the upper H1 rows and the lower H2 rows: a sum over H1 + H2 indices is the sum over the first
    H1 plus the sum over the last H2 (only commutativity and associativity of +, so no finiteness is needed);
  * hence the two-product layer `(block of a) · w_top + (block of e) · w_bottom + b` on the matrix unit is the
    host's `concat(a, e) · w + b`.
-/
import proofs.«150780_j73443940762207_2_alg».proof.Proof.LibDotBlocks
import proofs.«150780_j73443940762207_2_alg».proof.Proof.LibRows
import proofs.«150780_j73443940762207_2_alg».proof.Proof.LibRowBroadcast
import Idealize.ShloMosaic.Lib.ValueIdx
import Idealize.ShloMosaic.Lib.Pipeline.Value
import Idealize.ShloMosaic.PureOps.Ideal.Laws
import Mathlib.Algebra.BigOperators.Fin

noncomputable section

namespace Cert.Lib.DenseLayers

open Idealize.ShloMosaic Idealize.ShloMosaic.ValueIdx

/-- A vector [N] broadcast onto axis 1 of the row [1, N], read at (0, q), is the vector at q. -/
theorem vec_row_apply {α : Type} {N : Nat} (b : (⟨1, ![N]⟩ : Shape).Idx → α)
    (hb1 : (⟨1, ![N]⟩ : Shape).BroadcastsInDim ⟨2, ![1, N]⟩ (![1] : Fin 1 → Fin 2)) (q : Fin N) :
    broadcastInDim ⟨2, ![1, N]⟩ (![1] : Fin 1 → Fin 2) hb1 b (ix2 0 q) = b (ix1 q) :=
  broadcastInDim_apply (![1] : Fin 1 → Fin 2) hb1 b (ix2 0 q) (ix1 q) (fun a => by
    match a with
    | ⟨0, _⟩ =>
      show q.val = if N = 1 then 0 else q.val
      by_cases hC : N = 1
      · rw [if_pos hC]; have := q.isLt; omega
      · rw [if_neg hC])

/-- The bias: the block's row [1, N] spread over its B rows, read at (p, q), is the host's vector [N] made a row
    and spread over the M rows, read at (r, q), when the block's row holds the vector. -/
theorem bias_block_apply {α : Type} {M B N : Nat} (b : (⟨1, ![N]⟩ : Shape).Idx → α) (bb : (⟨2, ![1, N]⟩ : Shape).Idx → α)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N) (hb : bb (ix2 0 q) = b (ix1 q)) :
    broadcastTo ⟨2, ![B, N]⟩ bb hbt (ix2 p q)
      = broadcastInDim ⟨2, ![M, N]⟩ (![0, 1] : Fin 2 → Fin 2) hb01
          (broadcastInDim ⟨2, ![1, N]⟩ (![1] : Fin 1 → Fin 2) hb1 b) (ix2 r q) := by
  rw [Cert.Lib.Rows.broadcastTo_row_apply, Cert.Lib.RowBroadcast.broadcastInDim_row_apply, vec_row_apply, hb]

/-- An affine map on a block of rows is the host's affine map at the block's rows. -/
theorem affine_block_apply {M B K N : Nat} {ψ₁ ψ₂ : FTy}
    (X : FVec Ideal ⟨2, ![M, K]⟩ .f32) (W : FVec Ideal ⟨2, ![K, N]⟩ .f32) (b : FVec Ideal ⟨1, ![N]⟩ .f32)
    (xb : FVec Ideal ⟨2, ![B, K]⟩ .f32) (wb : FVec Ideal ⟨2, ![K, N]⟩ .f32) (bb : FVec Ideal ⟨2, ![1, N]⟩ .f32)
    (g₁ : ψ₁.bits < FTy.f32.bits) (g₂ : ψ₂.bits < FTy.f32.bits) (prec prec' : Option ContractPrecision)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N)
    (hx : ∀ k : Fin K, xb (ix2 p k) = X (ix2 r k)) (hw : ∀ k : Fin K, wb (ix2 k q) = W (ix2 k q))
    (hb : bb (ix2 0 q) = b (ix1 q)) :
    addf (matmul (DotDims.plain B K N) prec (truncf ψ₁ xb g₁) (truncf ψ₂ wb g₂) (constant (F := Ideal) ⟨2, ![B, N]⟩ .f32 0x00000000#32))
        (broadcastTo ⟨2, ![B, N]⟩ bb hbt) (ix2 p q)
      = addf (Host.dotGeneral (DotDims.plain M K N) prec' X W)
          (broadcastInDim ⟨2, ![M, N]⟩ (![0, 1] : Fin 2 → Fin 2) hb01
            (broadcastInDim ⟨2, ![1, N]⟩ (![1] : Fin 1 → Fin 2) hb1 b)) (ix2 r q) := by
  rw [addf_apply, addf_apply, bias_block_apply b bb hbt hb1 hb01 p r q hb,
    Cert.Lib.DotBlocks.matmul_block_eq_dotGeneral prec prec' X W (truncf ψ₁ xb g₁) (truncf ψ₂ wb g₂) p q r q hx hw]

/-- Clamping below at the constant word z: the vector unit's `max(A, splat z)` at an index is the host's
    `max(A', broadcast of the scalar constant z)` at an index where A and A' agree. -/
theorem relu_eq {s t : Shape} (A : FVec Ideal s .f32) (A' : FVec Ideal t .f32) (z : BitVec FTy.f32.bits) (i : s.Idx) (j : t.Idx)
    (h0 : (⟨0, ![]⟩ : Shape).BroadcastsInDim t (![] : Fin 0 → Fin t.rank)) (hA : A i = A' j) :
    maximumf A (broadcast s (Scalar.ofBits (F := Ideal) .f32 z)) i
      = maximumf A' (broadcastInDim t (![] : Fin 0 → Fin t.rank) h0 (constant (F := Ideal) ⟨0, ![]⟩ .f32 z)) j := by
  rw [maximumf_apply, maximumf_apply, hA,
    Cert.Lib.RowBroadcast.broadcastInDim_scalar_apply _ h0 j (fun a => a.elim0)]
  rfl

/-- A sum over K = K1 + K2 indices is the sum over the first K1 plus the sum over the last K2. -/
theorem sum_split {β : Type} [AddCommMonoid β] {K K1 K2 : Nat} (hK : K = K1 + K2) (f : Fin K → β) :
    ∑ k : Fin K, f k = (∑ k : Fin K1, f ⟨k.val, by omega⟩) + ∑ k : Fin K2, f ⟨K1 + k.val, by omega⟩ := by
  subst hK
  rw [Fin.sum_univ_add]
  rfl

/-- The host's product of two arrays joined along their columns against a matrix [H1 + H2, N], read at (r, q): the
    first array against the upper H1 rows plus the second against the lower H2 rows. -/
theorem concat_dot_apply {M K H1 H2 N : Nat} (hK : K = H1 + H2)
    (A : FVec Ideal ⟨2, ![M, H1]⟩ .f32) (E : FVec Ideal ⟨2, ![M, H2]⟩ .f32) (W : FVec Ideal ⟨2, ![K, N]⟩ .f32)
    (hc : Shape.Concatenates [(⟨2, ![M, H1]⟩ : Shape), ⟨2, ![M, H2]⟩] ⟨2, ![M, K]⟩ 1)
    (prec : Option ContractPrecision) (r : Fin M) (q : Fin N) :
    Host.dotGeneral (DotDims.plain M K N) prec
        (concatenate (⟨2, ![M, K]⟩ : Shape) 1 [⟨(⟨2, ![M, H1]⟩ : Shape), A⟩, ⟨(⟨2, ![M, H2]⟩ : Shape), E⟩] hc) W (ix2 r q)
      = (∑ k : Fin H1, A (ix2 r k) * W (ix2 ⟨k.val, by omega⟩ q))
        + ∑ k : Fin H2, E (ix2 r k) * W (ix2 ⟨H1 + k.val, by omega⟩ q) := by
  rw [Cert.Lib.RowBlocks.dotGeneral_plain_apply, sum_split hK]
  congr 1
  · refine Finset.sum_congr rfl fun k _ => ?_
    rw [concatenate_pair_apply_left (t := (⟨2, ![M, K]⟩ : Shape)) (1 : Fin 2) A E hc (ix2 r ⟨k.val, by omega⟩) rfl (ix2 r k)
      (fun b => by match b with | ⟨0, _⟩ => rfl | ⟨1, _⟩ => rfl)]
  · refine Finset.sum_congr rfl fun k _ => ?_
    rw [concatenate_pair_apply_right (t := (⟨2, ![M, K]⟩ : Shape)) (1 : Fin 2) A E hc (ix2 r ⟨H1 + k.val, by omega⟩) rfl rfl (ix2 r k)
      (fun b hb => by match b with | ⟨0, _⟩ => rfl | ⟨1, _⟩ => exact absurd rfl hb)
      (by show k.val + H1 = H1 + k.val; omega)]

/-- The two-product layer on a block of rows is the host's product of the joined arrays, plus the bias. -/
theorem dual_block_apply {M B K H1 H2 N : Nat} {ψ₁ ψ₂ ψ₃ ψ₄ : FTy} (hK : K = H1 + H2)
    (A : FVec Ideal ⟨2, ![M, H1]⟩ .f32) (E : FVec Ideal ⟨2, ![M, H2]⟩ .f32) (W : FVec Ideal ⟨2, ![K, N]⟩ .f32)
    (b : FVec Ideal ⟨1, ![N]⟩ .f32)
    (ab : FVec Ideal ⟨2, ![B, H1]⟩ .f32) (eb : FVec Ideal ⟨2, ![B, H2]⟩ .f32)
    (wt : FVec Ideal ⟨2, ![H1, N]⟩ .f32) (wl : FVec Ideal ⟨2, ![H2, N]⟩ .f32) (bb : FVec Ideal ⟨2, ![1, N]⟩ .f32)
    (g₁ : ψ₁.bits < FTy.f32.bits) (g₂ : ψ₂.bits < FTy.f32.bits) (g₃ : ψ₃.bits < FTy.f32.bits) (g₄ : ψ₄.bits < FTy.f32.bits)
    (prec₁ prec₂ prec' : Option ContractPrecision)
    (hc : Shape.Concatenates [(⟨2, ![M, H1]⟩ : Shape), ⟨2, ![M, H2]⟩] ⟨2, ![M, K]⟩ 1)
    (hbt : (⟨2, ![1, N]⟩ : Shape).Broadcasts ⟨2, ![B, N]⟩)
    (hb1 : (⟨1, ![N]⟩ : Shape).BroadcastsInDim ⟨2, ![1, N]⟩ (![1] : Fin 1 → Fin 2))
    (hb01 : (⟨2, ![1, N]⟩ : Shape).BroadcastsInDim ⟨2, ![M, N]⟩ (![0, 1] : Fin 2 → Fin 2))
    (p : Fin B) (r : Fin M) (q : Fin N)
    (ha : ∀ k : Fin H1, ab (ix2 p k) = A (ix2 r k)) (he : ∀ k : Fin H2, eb (ix2 p k) = E (ix2 r k))
    (hwt : ∀ k : Fin H1, wt (ix2 k q) = W (ix2 ⟨k.val, by omega⟩ q))
    (hwl : ∀ k : Fin H2, wl (ix2 k q) = W (ix2 ⟨H1 + k.val, by omega⟩ q))
    (hb : bb (ix2 0 q) = b (ix1 q)) :
    addf (addf (matmul (DotDims.plain B H1 N) prec₁ (truncf ψ₁ ab g₁) (truncf ψ₂ wt g₂) (constant (F := Ideal) ⟨2, ![B, N]⟩ .f32 0x00000000#32))
               (matmul (DotDims.plain B H2 N) prec₂ (truncf ψ₃ eb g₃) (truncf ψ₄ wl g₄) (constant (F := Ideal) ⟨2, ![B, N]⟩ .f32 0x00000000#32)))
        (broadcastTo ⟨2, ![B, N]⟩ bb hbt) (ix2 p q)
      = addf (Host.dotGeneral (DotDims.plain M K N) prec'
                (concatenate (⟨2, ![M, K]⟩ : Shape) 1 [⟨(⟨2, ![M, H1]⟩ : Shape), A⟩, ⟨(⟨2, ![M, H2]⟩ : Shape), E⟩] hc) W)
          (broadcastInDim ⟨2, ![M, N]⟩ (![0, 1] : Fin 2 → Fin 2) hb01
            (broadcastInDim ⟨2, ![1, N]⟩ (![1] : Fin 1 → Fin 2) hb1 b)) (ix2 r q) := by
  rw [addf_apply, addf_apply, addf_apply, bias_block_apply b bb hbt hb1 hb01 p r q hb, concat_dot_apply hK,
    Cert.Lib.PlainDot.matmul_plain_zero_apply, Cert.Lib.PlainDot.matmul_plain_zero_apply]
  congr 2
  · exact Finset.sum_congr rfl fun k _ => congrArg₂ (fun u v : EReal => u * v) (ha k) (hwt k)
  · exact Finset.sum_congr rfl fun k _ => congrArg₂ (fun u v : EReal => u * v) (he k) (hwl k)

end Cert.Lib.DenseLayers

end
-- ==== Proof.Region0.lean ====
/-
  The node transform, region 0 of the kernel: what its result array holds.

  The region's grid has 10 points; point t stages rows 5000·t … 5000·t + 4999 of the left operand (all 128 columns), the whole
  weight matrix and the whole bias row, and writes back rows 5000·t … 5000·t + 4999 of the result.  The body narrows its
  operands (the identity at the ideal values), multiplies them into the zero accumulator, adds the bias row to every
  row and clamps below at zero.  So what point t writes back is block t of ONE function of the whole arrays —
  relu(x · w + b), which is the reference's own term for this layer — and since the 10 blocks tile the rows, the array
  after the region is that function of the arrays the region found.
-/
import proofs.«150780_j73443940762207_2_alg».proof.Proof.KernelIdealFrameP
import proofs.«150780_j73443940762207_2_alg».proof.Proof.Gen.ReferenceIdeal.Read
import proofs.«150780_j73443940762207_2_alg».proof.Proof.LibDenseLayers

set_option maxRecDepth 16384

noncomputable section

namespace Cert.KernelIdeal.Reg0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-- The body's arithmetic at the block-local index (p, q) is the reference's layer at (r, q), when row p of the
    staged block is row r of the whole left operand, the staged weights are the whole matrix and the staged
    bias row holds the bias vector. -/
theorem pay_apply (X : FVec Ideal Cert.ReferenceIdeal.S50000x128 .f32) (Wm : FVec Ideal Cert.ReferenceIdeal.S128x128 .f32)
    (bv : FVec Ideal Cert.ReferenceIdeal.S128 .f32)
    (xb : Vec Ideal S5000x128 .f32) (wb : Vec Ideal S128x128 .f32) (bb : Vec Ideal S1x128 .f32)
    (p : Fin 5000) (q : Fin 128) (r : Fin 50000)
    (hx : ∀ k : Fin 128, xb (ix2 p k) = X (ix2 r k)) (hw : ∀ k : Fin 128, wb (ix2 k q) = Wm (ix2 k q))
    (hb : bb (ix2 0 q) = bv (ix1 q)) :
    k0_pay1 (F := Ideal) xb wb bb (ix2 p q) = Cert.ReferenceIdeal.Read.val_main_v8 (F := Ideal) X Wm bv (ix2 r q) := by
  unfold k0_pay1 Cert.ReferenceIdeal.Read.val_main_v8 Cert.ReferenceIdeal.Read.val_main_v7 Cert.ReferenceIdeal.Read.val_main_v4
    Cert.ReferenceIdeal.Read.val_main_v6 Cert.ReferenceIdeal.Read.val_main_v5 Cert.ReferenceIdeal.Read.val_main_call0_v0 Cert.ReferenceIdeal.Read.val_main_call0_cst
  simp only [shapeCast_self]
  exact Cert.Lib.DenseLayers.relu_eq _ _ _ _ _ _
    (Cert.Lib.DenseLayers.affine_block_apply X Wm bv xb wb bb _ _ none none _ _ _ p r q hx hw hb)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the result's block index is the point's number
    on the rows; the weights and the bias are always block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the layer's function of the arrays the region finds. -/
theorem flushed_eq (c : Dev nD) (t : Fin cfg0.N) (bv : FVec Ideal Cert.ReferenceIdeal.S128 .f32)
    (hb : ∀ q : Fin 128, V c main_v4 (ix2 0 q) = bv (ix1 q)) :
    (dat0 V c).flushed 3 t = ((cfg0.win 3).blk t).view.read (Elt Ideal)
      (Cert.ReferenceIdeal.Read.val_main_v8 (F := Ideal) (V c main_arg0) (V c main_arg2) bv) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e00, e01, e10, e11, e20, e21, e30, e31⟩ := idx_facts t
  have hN : cfg0.N = 10 := N_0
  have ht : t.val < 10 := by have h := t.isLt; omega
  funext j
  obtain ⟨p, q, rfl⟩ : ∃ (p : Fin 5000) (q : Fin 128), j = ix2 p q := ⟨j 0, j 1, eq_ix2 j⟩
  have hr : t.val * 5000 + p.val < 50000 := by have := p.isLt; omega
  have hemb : ((cfg0.win 3).blk t).view.emb (ix2 p q) = ix2 (⟨t.val * 5000 + p.val, hr⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show k0_pay1 (F := Ideal) (iblk0 V c 0 t) (iblk0 V c 1 t) (iblk0 V c 2 t) (ix2 p q)
    = Cert.ReferenceIdeal.Read.val_main_v8 (F := Ideal) (V c main_arg0) (V c main_arg2) bv (((cfg0.win 3).blk t).view.emb (ix2 p q))
  rw [hemb]
  refine pay_apply (V c main_arg0) (V c main_arg2) bv (iblk0 V c 0 t) (iblk0 V c 1 t) (iblk0 V c 2 t) p q ⟨_, hr⟩
    (fun k => ?_) (fun k => ?_) ?_
  · have h0 : ((cfg0.win 0).blk t).view.emb (ix2 p k) = ix2 (⟨t.val * 5000 + p.val, hr⟩ : Fin 50000) k := by
      funext a; apply Fin.ext
      match a with
      | ⟨0, _⟩ => show win0_0.index t (0 : Fin 2) * 5000 + 1 * p.val = t.val * 5000 + p.val; omega
      | ⟨1, _⟩ => show win0_0.index t (1 : Fin 2) * 128 + 1 * k.val = k.val; omega
    show V c main_arg0 (((cfg0.win 0).blk t).view.emb (ix2 p k)) = V c main_arg0 (ix2 (⟨t.val * 5000 + p.val, hr⟩ : Fin 50000) k)
    rw [h0]
  · have h1 : ((cfg0.win 1).blk t).view.emb (ix2 k q) = ix2 k q := by
      funext a; apply Fin.ext
      match a with
      | ⟨0, _⟩ => show win0_1.index t (0 : Fin 2) * 128 + 1 * k.val = k.val; omega
      | ⟨1, _⟩ => show win0_1.index t (1 : Fin 2) * 128 + 1 * q.val = q.val; omega
    show V c main_arg2 (((cfg0.win 1).blk t).view.emb (ix2 k q)) = V c main_arg2 (ix2 k q)
    rw [h1]
  · have h2 : ((cfg0.win 2).blk t).view.emb (ix2 (0 : Fin 1) q) = ix2 (0 : Fin 1) q := by
      funext a; apply Fin.ext
      match a with
      | ⟨0, _⟩ => show win0_2.index t (0 : Fin 2) * 1 + 1 * 0 = 0; omega
      | ⟨1, _⟩ => show win0_2.index t (1 : Fin 2) * 128 + 1 * q.val = q.val; omega
    show V c main_v4 (((cfg0.win 2).blk t).view.emb (ix2 (0 : Fin 1) q)) = bv (ix1 q)
    rw [h2]
    exact hb q

/-- An index of the result array is in point t's block iff its row is one of the block's rows. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v5).slice (win0_3.rect t)).set ↔ _
  rw [View.set_slice_whole, Rect.mem_set_unit]
  exact Iff.rfl

/-- The blocks tile the rows: row i is in the block of point i / 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨e00, e01, e10, e11, e20, e21, e30, e31⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    have e : win0_3.index ⟨(i 0).val / 5000, ht⟩ (0 : Fin 2) = (i 0).val / 5000 := e30
    omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    omega

/-- THE ARRAY after the region: the layer's function of the arrays the region finds. -/
theorem final (c : Dev nD) (X : FVec Ideal Cert.ReferenceIdeal.S50000x128 .f32) (Wm : FVec Ideal Cert.ReferenceIdeal.S128x128 .f32)
    (bv : FVec Ideal Cert.ReferenceIdeal.S128 .f32)
    (hX : V c main_arg0 = X) (hW : V c main_arg2 = Wm)
    (hb : ∀ q : Fin 128, V c main_v4 (ix2 0 q) = bv (ix1 q)) :
    (dat0 V c).arrAt 3 cfg0.N = Cert.ReferenceIdeal.Read.val_main_v8 (F := Ideal) X Wm bv := by
  subst hX hW
  exact (dat0 V c).arrAt_eq_of_cover 3 _ (fun t _ => flushed_eq V c t bv hb) (fun i => covered i)

end Cert.KernelIdeal.Reg0

end
-- ==== Proof.Region1.lean ====
/-
  The edge transform, region 1 of the kernel: what its result array holds.

  The region's grid has 80 points; point t stages rows 10000·t … 10000·t + 9999 of the left operand (all 32 columns), the whole
  weight matrix and the whole bias row, and writes back rows 10000·t … 10000·t + 9999 of the result.  The body narrows its
  operands (the identity at the ideal values), multiplies them into the zero accumulator, adds the bias row to every
  row and clamps below at zero.  So what point t writes back is block t of ONE function of the whole arrays —
  relu(x · w + b), which is the reference's own term for this layer — and since the 80 blocks tile the rows, the array
  after the region is that function of the arrays the region found.
-/
import proofs.«150780_j73443940762207_2_alg».proof.Proof.KernelIdealFrameP
import proofs.«150780_j73443940762207_2_alg».proof.Proof.Gen.ReferenceIdeal.Read
import proofs.«150780_j73443940762207_2_alg».proof.Proof.LibDenseLayers

set_option maxRecDepth 16384

noncomputable section

namespace Cert.KernelIdeal.Reg1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-- The body's arithmetic at the block-local index (p, q) is the reference's layer at (r, q), when row p of the
    staged block is row r of the whole left operand, the staged weights are the whole matrix and the staged
    bias row holds the bias vector. -/
theorem pay_apply (X : FVec Ideal Cert.ReferenceIdeal.S800000x32 .f32) (Wm : FVec Ideal Cert.ReferenceIdeal.S32x128 .f32)
    (bv : FVec Ideal Cert.ReferenceIdeal.S128 .f32)
    (xb : Vec Ideal S10000x32 .f32) (wb : Vec Ideal S32x128 .f32) (bb : Vec Ideal S1x128 .f32)
    (p : Fin 10000) (q : Fin 128) (r : Fin 800000)
    (hx : ∀ k : Fin 32, xb (ix2 p k) = X (ix2 r k)) (hw : ∀ k : Fin 32, wb (ix2 k q) = Wm (ix2 k q))
    (hb : bb (ix2 0 q) = bv (ix1 q)) :
    k1_pay1 (F := Ideal) xb wb bb (ix2 p q) = Cert.ReferenceIdeal.Read.val_main_v13 (F := Ideal) X Wm bv (ix2 r q) := by
  unfold k1_pay1 Cert.ReferenceIdeal.Read.val_main_v13 Cert.ReferenceIdeal.Read.val_main_v12 Cert.ReferenceIdeal.Read.val_main_v9
    Cert.ReferenceIdeal.Read.val_main_v11 Cert.ReferenceIdeal.Read.val_main_v10 Cert.ReferenceIdeal.Read.val_main_call1_v0 Cert.ReferenceIdeal.Read.val_main_call1_cst
  simp only [shapeCast_self]
  exact Cert.Lib.DenseLayers.relu_eq _ _ _ _ _ _
    (Cert.Lib.DenseLayers.affine_block_apply X Wm bv xb wb bb _ _ none none _ _ _ p r q hx hw hb)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the result's block index is the point's number
    on the rows; the weights and the bias are always block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the layer's function of the arrays the region finds. -/
theorem flushed_eq (c : Dev nD) (t : Fin cfg1.N) (bv : FVec Ideal Cert.ReferenceIdeal.S128 .f32)
    (hb : ∀ q : Fin 128, V c main_v6 (ix2 0 q) = bv (ix1 q)) :
    (dat1 V c).flushed 3 t = ((cfg1.win 3).blk t).view.read (Elt Ideal)
      (Cert.ReferenceIdeal.Read.val_main_v13 (F := Ideal) (V c main_arg1) (V c main_arg4) bv) := by
  show (cfg1.win 3).cut (grid1.coords t) ((dat1 V c).after 3 t) = _
  rw [after1_3]
  unfold out1_3
  rw [View.canon_unit_zero hz]
  simp only [View.ld_unit_zero (S := S10000x32) hz, View.ld_unit_zero (S := S32x128) hz, View.ld_unit_zero (S := S1x128) hz]
  obtain ⟨e00, e01, e10, e11, e20, e21, e30, e31⟩ := idx_facts t
  have hN : cfg1.N = 80 := N_1
  have ht : t.val < 80 := by have h := t.isLt; omega
  funext j
  obtain ⟨p, q, rfl⟩ : ∃ (p : Fin 10000) (q : Fin 128), j = ix2 p q := ⟨j 0, j 1, eq_ix2 j⟩
  have hr : t.val * 10000 + p.val < 800000 := by have := p.isLt; omega
  have hemb : ((cfg1.win 3).blk t).view.emb (ix2 p q) = ix2 (⟨t.val * 10000 + p.val, hr⟩ : Fin 800000) q := by
    funext a; apply Fin.ext
    match a with
    | ⟨0, _⟩ => show win1_3.index t (0 : Fin 2) * 10000 + 1 * p.val = t.val * 10000 + p.val; omega
    | ⟨1, _⟩ => show win1_3.index t (1 : Fin 2) * 128 + 1 * q.val = q.val; omega
  show k1_pay1 (F := Ideal) (iblk1 V c 0 t) (iblk1 V c 1 t) (iblk1 V c 2 t) (ix2 p q)
    = Cert.ReferenceIdeal.Read.val_main_v13 (F := Ideal) (V c main_arg1) (V c main_arg4) bv (((cfg1.win 3).blk t).view.emb (ix2 p q))
  rw [hemb]
  refine pay_apply (V c main_arg1) (V c main_arg4) bv (iblk1 V c 0 t) (iblk1 V c 1 t) (iblk1 V c 2 t) p q ⟨_, hr⟩
    (fun k => ?_) (fun k => ?_) ?_
  · have h0 : ((cfg1.win 0).blk t).view.emb (ix2 p k) = ix2 (⟨t.val * 10000 + p.val, hr⟩ : Fin 800000) k := by
      funext a; apply Fin.ext
      match a with
      | ⟨0, _⟩ => show win1_0.index t (0 : Fin 2) * 10000 + 1 * p.val = t.val * 10000 + p.val; omega
      | ⟨1, _⟩ => show win1_0.index t (1 : Fin 2) * 32 + 1 * k.val = k.val; omega
    show V c main_arg1 (((cfg1.win 0).blk t).view.emb (ix2 p k)) = V c main_arg1 (ix2 (⟨t.val * 10000 + p.val, hr⟩ : Fin 800000) k)
    rw [h0]
  · have h1 : ((cfg1.win 1).blk t).view.emb (ix2 k q) = ix2 k q := by
      funext a; apply Fin.ext
      match a with
      | ⟨0, _⟩ => show win1_1.index t (0 : Fin 2) * 32 + 1 * k.val = k.val; omega
      | ⟨1, _⟩ => show win1_1.index t (1 : Fin 2) * 128 + 1 * q.val = q.val; omega
    show V c main_arg4 (((cfg1.win 1).blk t).view.emb (ix2 k q)) = V c main_arg4 (ix2 k q)
    rw [h1]
  · have h2 : ((cfg1.win 2).blk t).view.emb (ix2 (0 : Fin 1) q) = ix2 (0 : Fin 1) q := by
      funext a; apply Fin.ext
      match a with
      | ⟨0, _⟩ => show win1_2.index t (0 : Fin 2) * 1 + 1 * 0 = 0; omega
      | ⟨1, _⟩ => show win1_2.index t (1 : Fin 2) * 128 + 1 * q.val = q.val; omega
    show V c main_v6 (((cfg1.win 2).blk t).view.emb (ix2 (0 : Fin 1) q)) = bv (ix1 q)
    rw [h2]
    exact hb q

/-- An index of the result array is in point t's block iff its row is one of the block's rows. -/
theorem mem_blk (t : Fin cfg1.N) (i : S800000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v7).slice (win1_3.rect t)).set ↔ _
  rw [View.set_slice_whole, Rect.mem_set_unit]
  exact Iff.rfl

/-- The blocks tile the rows: row i is in the block of point i / 10000. -/
theorem covered (i : S800000x128.Idx) :
    ∃ t : Fin cfg1.N, (cfg1.win 3).flush t = true ∧ i ∈ ((cfg1.win 3).blk t).view.set := by
  have hi0 : (i 0).val < 800000 := (i 0).isLt
  have hi1 : (i 1).val < 128 := (i 1).isLt
  have hN : cfg1.N = 80 := N_1
  have ht : (i 0).val / 10000 < cfg1.N := by rw [hN]; omega
  obtain ⟨e00, e01, e10, e11, e20, e21, e30, e31⟩ := idx_facts ⟨(i 0).val / 10000, ht⟩
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    have e : win1_3.index ⟨(i 0).val / 10000, ht⟩ (0 : Fin 2) = (i 0).val / 10000 := e30
    omega
  | ⟨1, _⟩ =>
    show win1_3.index ⟨(i 0).val / 10000, ht⟩ (1 : Fin 2) * 128 ≤ (i 1).val ∧ (i 1).val < win1_3.index ⟨(i 0).val / 10000, ht⟩ (1 : Fin 2) * 128 + 128
    omega

/-- THE ARRAY after the region: the layer's function of the arrays the region finds. -/
theorem final (c : Dev nD) (X : FVec Ideal Cert.ReferenceIdeal.S800000x32 .f32) (Wm : FVec Ideal Cert.ReferenceIdeal.S32x128 .f32)
    (bv : FVec Ideal Cert.ReferenceIdeal.S128 .f32)
    (hX : V c main_arg1 = X) (hW : V c main_arg4 = Wm)
    (hb : ∀ q : Fin 128, V c main_v6 (ix2 0 q) = bv (ix1 q)) :
    (dat1 V c).arrAt 3 cfg1.N = Cert.ReferenceIdeal.Read.val_main_v13 (F := Ideal) X Wm bv := by
  subst hX hW
  exact (dat1 V c).arrAt_eq_of_cover 3 _ (fun t _ => flushed_eq V c t bv hb) (fun i => covered i)

end Cert.KernelIdeal.Reg1

end
-- ==== Proof.DualBlock.lean ====
/-
  The kernel's two-product layer on a block of 5000 rows against the reference's layer.

  The two graph-convolution kernels stage a block of 5000 rows of each aggregated array, the upper and the lower
  128 rows of the layer's [256, 128] weight matrix as two [128, 128] matrices, and the bias as a row.  On the block
  they compute  relu( a_block · w_top + e_block · w_bottom + bias row ),  every operand narrowed first (the identity at
  the ideal values).  Read at the block-local index (p, q) this is the reference's relu(concat(A, E) · W + b) read at
  (r, q), when row p of each block is row r of its array: the sum over the 256 joined columns is the sum over the
  first 128 plus the sum over the last 128.
-/
import proofs.«150780_j73443940762207_2_alg».proof.Proof.Gen.KernelIdeal
import proofs.«150780_j73443940762207_2_alg».proof.Proof.RefLayers
import proofs.«150780_j73443940762207_2_alg».proof.Proof.LibDenseLayers

noncomputable section

namespace Cert.KernelIdeal.DualBlock

open Cert.KernelIdeal Cert.KernelIdeal.Gen Idealize.ShloMosaic Idealize.ShloMosaic.ValueIdx

theorem layer_block
    (A E : FVec Ideal Cert.ReferenceIdeal.S50000x128 .f32) (W : FVec Ideal Cert.ReferenceIdeal.S256x128 .f32)
    (bv : FVec Ideal Cert.ReferenceIdeal.S128 .f32)
    (ab eb : FVec Ideal S5000x128 .f32) (wt wl : FVec Ideal S128x128 .f32) (bb : FVec Ideal S1x128 .f32)
    (p : Fin 5000) (q : Fin 128) (r : Fin 50000)
    (ha : ∀ k : Fin 128, ab (ix2 p k) = A (ix2 r k)) (he : ∀ k : Fin 128, eb (ix2 p k) = E (ix2 r k))
    (hwt : ∀ k : Fin 128, wt (ix2 k q) = W (ix2 (⟨k.val, by omega⟩ : Fin 256) q))
    (hwl : ∀ k : Fin 128, wl (ix2 k q) = W (ix2 (⟨128 + k.val, by omega⟩ : Fin 256) q))
    (hb : bb (ix2 0 q) = bv (ix1 q)) :
    maximumf
        (addf
          (addf
            (matmul dot_S5000x128_S128x128_S5000x128_1_0_0_1_n_n none (truncf .bf16 ab bitsLt_bf16_f32) (truncf .bf16 wt bitsLt_bf16_f32)
              (constant (F := Ideal) S5000x128 .f32 0x00000000#32))
            (matmul dot_S5000x128_S128x128_S5000x128_1_0_0_1_n_n none (truncf .bf16 eb bitsLt_bf16_f32) (truncf .bf16 wl bitsLt_bf16_f32)
              (constant (F := Ideal) S5000x128 .f32 0x00000000#32)))
          (broadcastTo S5000x128 bb broadcasts_S1x128_S5000x128))
        (broadcast S5000x128 (Scalar.ofBits (F := Ideal) .f32 0x00000000#32)) (ix2 p q)
      = Cert.ReferenceIdeal.Layers.layer (F := Ideal) A E W bv (ix2 r q) := by
  unfold Cert.ReferenceIdeal.Layers.layer
  exact Cert.Lib.DenseLayers.relu_eq _ _ _ _ _ _
    (Cert.Lib.DenseLayers.dual_block_apply (K := 256) (H1 := 128) (H2 := 128) rfl A E W bv ab eb wt wl bb
      bitsLt_bf16_f32 bitsLt_bf16_f32 bitsLt_bf16_f32 bitsLt_bf16_f32 none none none _ _ _ _ p r q ha he hwt hwl hb)

end Cert.KernelIdeal.DualBlock

end
-- ==== Proof.Region2.lean ====
/-
  The first graph-convolution combine, region 2 of the kernel: what its result array holds.

  The grid has 10 points; point t stages rows 5000·t … 5000·t + 4999 of the two aggregated arrays, the two
  [128, 128] halves of the layer's weight matrix and its bias row, and writes back the same rows of the result.  By
  the block lemma what point t writes back is block t of the reference's layer relu(concat(A, E) · W + b) of the
  whole arrays, when the two staged halves are the upper and the lower 128 rows of W; the 10 blocks tile the rows.
-/
import proofs.«150780_j73443940762207_2_alg».proof.Proof.KernelIdealFrameP
import proofs.«150780_j73443940762207_2_alg».proof.Proof.DualBlock

set_option maxRecDepth 16384

noncomputable section

namespace Cert.KernelIdeal.Reg2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-- The body's arithmetic at the block-local index (p, q) is the reference's layer at (r, q). -/
theorem pay_apply
    (A E : FVec Ideal Cert.ReferenceIdeal.S50000x128 .f32) (W : FVec Ideal Cert.ReferenceIdeal.S256x128 .f32)
    (bv : FVec Ideal Cert.ReferenceIdeal.S128 .f32)
    (ab eb : Vec Ideal S5000x128 .f32) (wt wl : Vec Ideal S128x128 .f32) (bb : Vec Ideal S1x128 .f32)
    (p : Fin 5000) (q : Fin 128) (r : Fin 50000)
    (ha : ∀ k : Fin 128, ab (ix2 p k) = A (ix2 r k)) (he : ∀ k : Fin 128, eb (ix2 p k) = E (ix2 r k))
    (hwt : ∀ k : Fin 128, wt (ix2 k q) = W (ix2 (⟨k.val, by omega⟩ : Fin 256) q))
    (hwl : ∀ k : Fin 128, wl (ix2 k q) = W (ix2 (⟨128 + k.val, by omega⟩ : Fin 256) q))
    (hb : bb (ix2 0 q) = bv (ix1 q)) :
    k2_pay1 (F := Ideal) ab eb wt wl bb (ix2 p q) = Cert.ReferenceIdeal.Layers.layer (F := Ideal) A E W bv (ix2 r q) := by
  unfold k2_pay1
  simp only [shapeCast_self]
  exact Cert.KernelIdeal.DualBlock.layer_block A E W bv ab eb wt wl bb p q r ha he hwt hwl hb

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two aggregated arrays' and the result's block index is the point's
    number on the rows; the weights and the bias are always block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the layer's function of the arrays the region finds. -/
theorem flushed_eq (c : Dev nD) (t : Fin cfg2.N)
    (W : FVec Ideal Cert.ReferenceIdeal.S256x128 .f32) (bv : FVec Ideal Cert.ReferenceIdeal.S128 .f32)
    (hwt : ∀ k q : Fin 128, V c main_v21 (ix2 k q) = W (ix2 (⟨k.val, by omega⟩ : Fin 256) q))
    (hwl : ∀ k q : Fin 128, V c main_v22 (ix2 k q) = W (ix2 (⟨128 + k.val, by omega⟩ : Fin 256) q))
    (hb : ∀ q : Fin 128, V c main_v23 (ix2 0 q) = bv (ix1 q)) :
    (dat2 V c).flushed 5 t = ((cfg2.win 5).blk t).view.read (Elt Ideal)
      (Cert.ReferenceIdeal.Layers.layer (F := Ideal) (V c main_v20) (V c main_v10) W bv) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  have hN : cfg2.N = 10 := N_2
  have ht : t.val < 10 := by have h := t.isLt; omega
  funext j
  obtain ⟨p, q, rfl⟩ : ∃ (p : Fin 5000) (q : Fin 128), j = ix2 p q := ⟨j 0, j 1, eq_ix2 j⟩
  have hr : t.val * 5000 + p.val < 50000 := by have := p.isLt; omega
  have hemb : ((cfg2.win 5).blk t).view.emb (ix2 p q) = ix2 (⟨t.val * 5000 + p.val, hr⟩ : Fin 50000) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  show k2_pay1 (F := Ideal) (iblk2 V c 0 t) (iblk2 V c 1 t) (iblk2 V c 2 t) (iblk2 V c 3 t) (iblk2 V c 4 t) (ix2 p q)
    = Cert.ReferenceIdeal.Layers.layer (F := Ideal) (V c main_v20) (V c main_v10) W bv (((cfg2.win 5).blk t).view.emb (ix2 p q))
  rw [hemb]
  refine pay_apply (V c main_v20) (V c main_v10) W bv (iblk2 V c 0 t) (iblk2 V c 1 t) (iblk2 V c 2 t) (iblk2 V c 3 t) (iblk2 V c 4 t)
    p q ⟨_, hr⟩ (fun k => ?_) (fun k => ?_) (fun k => ?_) (fun k => ?_) ?_
  · have h0 : ((cfg2.win 0).blk t).view.emb (ix2 p k) = ix2 (⟨t.val * 5000 + p.val, hr⟩ : Fin 50000) k := by
      funext a; apply Fin.ext
      match a with
      | ⟨0, _⟩ => show win2_0.index t (0 : Fin 2) * 5000 + 1 * p.val = t.val * 5000 + p.val; omega
      | ⟨1, _⟩ => show win2_0.index t (1 : Fin 2) * 128 + 1 * k.val = k.val; omega
    show V c main_v20 (((cfg2.win 0).blk t).view.emb (ix2 p k)) = V c main_v20 (ix2 (⟨t.val * 5000 + p.val, hr⟩ : Fin 50000) k)
    rw [h0]
  · have h1 : ((cfg2.win 1).blk t).view.emb (ix2 p k) = ix2 (⟨t.val * 5000 + p.val, hr⟩ : Fin 50000) k := by
      funext a; apply Fin.ext
      match a with
      | ⟨0, _⟩ => show win2_1.index t (0 : Fin 2) * 5000 + 1 * p.val = t.val * 5000 + p.val; omega
      | ⟨1, _⟩ => show win2_1.index t (1 : Fin 2) * 128 + 1 * k.val = k.val; omega
    show V c main_v10 (((cfg2.win 1).blk t).view.emb (ix2 p k)) = V c main_v10 (ix2 (⟨t.val * 5000 + p.val, hr⟩ : Fin 50000) k)
    rw [h1]
  · have h2 : ((cfg2.win 2).blk t).view.emb (ix2 k q) = ix2 k q := by
      funext a; apply Fin.ext
      match a with
      | ⟨0, _⟩ => show win2_2.index t (0 : Fin 2) * 128 + 1 * k.val = k.val; omega
      | ⟨1, _⟩ => show win2_2.index t (1 : Fin 2) * 128 + 1 * q.val = q.val; omega
    show V c main_v21 (((cfg2.win 2).blk t).view.emb (ix2 k q)) = W (ix2 (⟨k.val, by omega⟩ : Fin 256) q)
    rw [h2]
    exact hwt k q
  · have h3 : ((cfg2.win 3).blk t).view.emb (ix2 k q) = ix2 k q := by
      funext a; apply Fin.ext
      match a with
      | ⟨0, _⟩ => show win2_3.index t (0 : Fin 2) * 128 + 1 * k.val = k.val; omega
      | ⟨1, _⟩ => show win2_3.index t (1 : Fin 2) * 128 + 1 * q.val = q.val; omega
    show V c main_v22 (((cfg2.win 3).blk t).view.emb (ix2 k q)) = W (ix2 (⟨128 + k.val, by omega⟩ : Fin 256) q)
    rw [h3]
    exact hwl k q
  · have h4 : ((cfg2.win 4).blk t).view.emb (ix2 (0 : Fin 1) q) = ix2 (0 : Fin 1) q := by
      funext a; apply Fin.ext
      match a with
      | ⟨0, _⟩ => show win2_4.index t (0 : Fin 2) * 1 + 1 * 0 = 0; omega
      | ⟨1, _⟩ => show win2_4.index t (1 : Fin 2) * 128 + 1 * q.val = q.val; omega
    show V c main_v23 (((cfg2.win 4).blk t).view.emb (ix2 (0 : Fin 1) q)) = bv (ix1 q)
    rw [h4]
    exact hb q

/-- An index of the result array is in point t's block iff its row is one of the block's rows. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v24).slice (win2_5.rect t)).set ↔ _
  rw [View.set_slice_whole, Rect.mem_set_unit]
  exact Iff.rfl

/-- The blocks tile the rows: row i is in the block of point i / 5000. -/
theorem covered (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨e00, e01, e10, e11, e20, e21, e30, e31, e40, e41, e50, e51⟩ := idx_facts ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    have e : win2_5.index ⟨(i 0).val / 5000, ht⟩ (0 : Fin 2) = (i 0).val / 5000 := e50
    omega
  | ⟨1, _⟩ =>
    show win2_5.index ⟨(i 0).val / 5000, ht⟩ (1 : Fin 2) * 128 ≤ (i 1).val ∧ (i 1).val < win2_5.index ⟨(i 0).val / 5000, ht⟩ (1 : Fin 2) * 128 + 128
    omega

/-- THE ARRAY after the region: the layer's function of the arrays the region finds. -/
theorem final (c : Dev nD)
    (A E : FVec Ideal Cert.ReferenceIdeal.S50000x128 .f32)
    (W : FVec Ideal Cert.ReferenceIdeal.S256x128 .f32) (bv : FVec Ideal Cert.ReferenceIdeal.S128 .f32)
    (hA : V c main_v20 = A) (hE : V c main_v10 = E)
    (hwt : ∀ k q : Fin 128, V c main_v21 (ix2 k q) = W (ix2 (⟨k.val, by omega⟩ : Fin 256) q))
    (hwl : ∀ k q : Fin 128, V c main_v22 (ix2 k q) = W (ix2 (⟨128 + k.val, by omega⟩ : Fin 256) q))
    (hb : ∀ q : Fin 128, V c main_v23 (ix2 0 q) = bv (ix1 q)) :
    (dat2 V c).arrAt 5 cfg2.N = Cert.ReferenceIdeal.Layers.layer (F := Ideal) A E W bv := by
  subst hA hE
  exact (dat2 V c).arrAt_eq_of_cover 5 _ (fun t _ => flushed_eq V c t W bv hwt hwl hb) (fun i => covered i)

end Cert.KernelIdeal.Reg2

end
-- ==== Proof.Region3.lean ====
/-
  The second graph-convolution combine fused with the output projection, region 3 of the kernel: what its result
  array holds.

  The grid has 10 points; point t stages rows 5000·t … 5000·t + 4999 of the two aggregated arrays, the two
  [128, 128] halves of the second layer's weight matrix, its bias row, the [128, 1] output weights and the [1, 1]
  output bias, and writes back rows 5000·t … 5000·t + 4999 of the one-column scores.  On the block the body computes
  h = relu(a_block · w_top + e_block · w_bottom + bias row) — by the block lemma, rows of the reference's layer —
  and then h · w_out + b_out: a product of a block of rows of the layer against the whole output weights, which is the
  reference's projection at those rows.  The 10 blocks tile the rows.
-/
import proofs.«150780_j73443940762207_2_alg».proof.Proof.KernelIdealFrameP
import proofs.«150780_j73443940762207_2_alg».proof.Proof.DualBlock

set_option maxRecDepth 16384

noncomputable section

namespace Cert.KernelIdeal.Reg3

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

/-- The body's arithmetic at the block-local index (p, q) is the reference's projected layer at (r, q). -/
theorem pay_apply
    (A E : FVec Ideal Cert.ReferenceIdeal.S50000x128 .f32) (W : FVec Ideal Cert.ReferenceIdeal.S256x128 .f32)
    (bv : FVec Ideal Cert.ReferenceIdeal.S128 .f32)
    (Wo : FVec Ideal Cert.ReferenceIdeal.S128x1 .f32) (bo : FVec Ideal Cert.ReferenceIdeal.S1 .f32)
    (ab eb : Vec Ideal S5000x128 .f32) (wt wl : Vec Ideal S128x128 .f32) (bb : Vec Ideal S1x128 .f32)
    (wo : Vec Ideal S128x1 .f32) (bob : Vec Ideal S1x1 .f32)
    (p : Fin 5000) (q : Fin 1) (r : Fin 50000)
    (ha : ∀ k : Fin 128, ab (ix2 p k) = A (ix2 r k)) (he : ∀ k : Fin 128, eb (ix2 p k) = E (ix2 r k))
    (hwt : ∀ k j : Fin 128, wt (ix2 k j) = W (ix2 (⟨k.val, by omega⟩ : Fin 256) j))
    (hwl : ∀ k j : Fin 128, wl (ix2 k j) = W (ix2 (⟨128 + k.val, by omega⟩ : Fin 256) j))
    (hb : ∀ j : Fin 128, bb (ix2 0 j) = bv (ix1 j))
    (hwo : ∀ k : Fin 128, wo (ix2 k q) = Wo (ix2 k q)) (hbo : bob (ix2 0 q) = bo (ix1 q)) :
    k3_pay1 (F := Ideal) ab eb wt wl bb wo bob (ix2 p q)
      = Cert.ReferenceIdeal.Layers.proj (F := Ideal) (Cert.ReferenceIdeal.Layers.layer (F := Ideal) A E W bv) Wo bo (ix2 r q) := by
  unfold k3_pay1 Cert.ReferenceIdeal.Layers.proj
  simp only [shapeCast_self]
  exact Cert.Lib.DenseLayers.affine_block_apply (Cert.ReferenceIdeal.Layers.layer (F := Ideal) A E W bv) Wo bo _ wo bob
    bitsLt_bf16_f32 bitsLt_bf16_f32 none none _ _ _ p r q
    (fun k => Cert.KernelIdeal.DualBlock.layer_block A E W bv ab eb wt wl bb p k r ha he (fun k' => hwt k' k) (fun k' => hwl k' k) (hb k))
    hwo hbo

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two aggregated arrays' and the result's block index is the point's
    number on the rows; the weights and the biases are always block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- What point t writes back is block t of the projected layer of the arrays the region finds. -/
theorem flushed_eq (c : Dev nD) (t : Fin cfg3.N)
    (W : FVec Ideal Cert.ReferenceIdeal.S256x128 .f32) (bv : FVec Ideal Cert.ReferenceIdeal.S128 .f32)
    (bo : FVec Ideal Cert.ReferenceIdeal.S1 .f32)
    (hwt : ∀ k q : Fin 128, V c main_v35 (ix2 k q) = W (ix2 (⟨k.val, by omega⟩ : Fin 256) q))
    (hwl : ∀ k q : Fin 128, V c main_v36 (ix2 k q) = W (ix2 (⟨128 + k.val, by omega⟩ : Fin 256) q))
    (hb : ∀ q : Fin 128, V c main_v37 (ix2 0 q) = bv (ix1 q))
    (hbo : ∀ q : Fin 1, V c main_v38 (ix2 0 q) = bo (ix1 q)) :
    (dat3 V c).flushed 7 t = ((cfg3.win 7).blk t).view.read (Elt Ideal)
      (Cert.ReferenceIdeal.Layers.proj (F := Ideal)
        (Cert.ReferenceIdeal.Layers.layer (F := Ideal) (V c main_v34) (V c main_v10) W bv) (V c main_arg10) bo) := by
  show (cfg3.win 7).cut (grid3.coords t) ((dat3 V c).after 7 t) = _
  rw [after3_7]
  unfold out3_7
  rw [View.canon_unit_zero hz]
  simp only [View.ld_unit_zero (S := S5000x128) hz, View.ld_unit_zero (S := S128x128) hz, View.ld_unit_zero (S := S1x128) hz,
    View.ld_unit_zero (S := S128x1) hz, View.ld_unit_zero (S := S1x1) hz]
  obtain ⟨e00, e01, e10, e11, e20, e21, e30, e31, e40, e41, e50, e51, e60, e61, e70, e71⟩ := idx_facts t
  have hN : cfg3.N = 10 := N_3
  have ht : t.val < 10 := by have h := t.isLt; omega
  funext j
  obtain ⟨p, q, rfl⟩ : ∃ (p : Fin 5000) (q : Fin 1), j = ix2 p q := ⟨j 0, j 1, eq_ix2 j⟩
  have hq : q.val = 0 := by have := q.isLt; omega
  have hr : t.val * 5000 + p.val < 50000 := by have := p.isLt; omega
  have hemb : ((cfg3.win 7).blk t).view.emb (ix2 p q) = ix2 (⟨t.val * 5000 + p.val, hr⟩ : Fin 50000) q := by
    funext a; apply Fin.ext
    match a with
    | ⟨0, _⟩ => show win3_7.index t (0 : Fin 2) * 5000 + 1 * p.val = t.val * 5000 + p.val; omega
    | ⟨1, _⟩ => show win3_7.index t (1 : Fin 2) * 1 + 1 * q.val = q.val; omega
  show k3_pay1 (F := Ideal) (iblk3 V c 0 t) (iblk3 V c 1 t) (iblk3 V c 2 t) (iblk3 V c 3 t) (iblk3 V c 4 t) (iblk3 V c 5 t) (iblk3 V c 6 t) (ix2 p q)
    = Cert.ReferenceIdeal.Layers.proj (F := Ideal)
        (Cert.ReferenceIdeal.Layers.layer (F := Ideal) (V c main_v34) (V c main_v10) W bv) (V c main_arg10) bo
        (((cfg3.win 7).blk t).view.emb (ix2 p q))
  rw [hemb]
  refine pay_apply (V c main_v34) (V c main_v10) W bv (V c main_arg10) bo
    (iblk3 V c 0 t) (iblk3 V c 1 t) (iblk3 V c 2 t) (iblk3 V c 3 t) (iblk3 V c 4 t) (iblk3 V c 5 t) (iblk3 V c 6 t)
    p q ⟨_, hr⟩ (fun k => ?_) (fun k => ?_) (fun k j => ?_) (fun k j => ?_) (fun j => ?_) (fun k => ?_) ?_
  · have h0 : ((cfg3.win 0).blk t).view.emb (ix2 p k) = ix2 (⟨t.val * 5000 + p.val, hr⟩ : Fin 50000) k := by
      funext a; apply Fin.ext
      match a with
      | ⟨0, _⟩ => show win3_0.index t (0 : Fin 2) * 5000 + 1 * p.val = t.val * 5000 + p.val; omega
      | ⟨1, _⟩ => show win3_0.index t (1 : Fin 2) * 128 + 1 * k.val = k.val; omega
    show V c main_v34 (((cfg3.win 0).blk t).view.emb (ix2 p k)) = V c main_v34 (ix2 (⟨t.val * 5000 + p.val, hr⟩ : Fin 50000) k)
    rw [h0]
  · have h1 : ((cfg3.win 1).blk t).view.emb (ix2 p k) = ix2 (⟨t.val * 5000 + p.val, hr⟩ : Fin 50000) k := by
      funext a; apply Fin.ext
      match a with
      | ⟨0, _⟩ => show win3_1.index t (0 : Fin 2) * 5000 + 1 * p.val = t.val * 5000 + p.val; omega
      | ⟨1, _⟩ => show win3_1.index t (1 : Fin 2) * 128 + 1 * k.val = k.val; omega
    show V c main_v10 (((cfg3.win 1).blk t).view.emb (ix2 p k)) = V c main_v10 (ix2 (⟨t.val * 5000 + p.val, hr⟩ : Fin 50000) k)
    rw [h1]
  · have h2 : ((cfg3.win 2).blk t).view.emb (ix2 k j) = ix2 k j := by
      funext a; apply Fin.ext
      match a with
      | ⟨0, _⟩ => show win3_2.index t (0 : Fin 2) * 128 + 1 * k.val = k.val; omega
      | ⟨1, _⟩ => show win3_2.index t (1 : Fin 2) * 128 + 1 * j.val = j.val; omega
    show V c main_v35 (((cfg3.win 2).blk t).view.emb (ix2 k j)) = W (ix2 (⟨k.val, by omega⟩ : Fin 256) j)
    rw [h2]
    exact hwt k j
  · have h3 : ((cfg3.win 3).blk t).view.emb (ix2 k j) = ix2 k j := by
      funext a; apply Fin.ext
      match a with
      | ⟨0, _⟩ => show win3_3.index t (0 : Fin 2) * 128 + 1 * k.val = k.val; omega
      | ⟨1, _⟩ => show win3_3.index t (1 : Fin 2) * 128 + 1 * j.val = j.val; omega
    show V c main_v36 (((cfg3.win 3).blk t).view.emb (ix2 k j)) = W (ix2 (⟨128 + k.val, by omega⟩ : Fin 256) j)
    rw [h3]
    exact hwl k j
  · have h4 : ((cfg3.win 4).blk t).view.emb (ix2 (0 : Fin 1) j) = ix2 (0 : Fin 1) j := by
      funext a; apply Fin.ext
      match a with
      | ⟨0, _⟩ => show win3_4.index t (0 : Fin 2) * 1 + 1 * 0 = 0; omega
      | ⟨1, _⟩ => show win3_4.index t (1 : Fin 2) * 128 + 1 * j.val = j.val; omega
    show V c main_v37 (((cfg3.win 4).blk t).view.emb (ix2 (0 : Fin 1) j)) = bv (ix1 j)
    rw [h4]
    exact hb j
  · have h5 : ((cfg3.win 5).blk t).view.emb (ix2 k q) = ix2 k q := by
      funext a; apply Fin.ext
      match a with
      | ⟨0, _⟩ => show win3_5.index t (0 : Fin 2) * 128 + 1 * k.val = k.val; omega
      | ⟨1, _⟩ => show win3_5.index t (1 : Fin 2) * 1 + 1 * q.val = q.val; omega
    show V c main_arg10 (((cfg3.win 5).blk t).view.emb (ix2 k q)) = V c main_arg10 (ix2 k q)
    rw [h5]
  · have h6 : ((cfg3.win 6).blk t).view.emb (ix2 (0 : Fin 1) q) = ix2 (0 : Fin 1) q := by
      funext a; apply Fin.ext
      match a with
      | ⟨0, _⟩ => show win3_6.index t (0 : Fin 2) * 1 + 1 * 0 = 0; omega
      | ⟨1, _⟩ => show win3_6.index t (1 : Fin 2) * 1 + 1 * q.val = q.val; omega
    show V c main_v38 (((cfg3.win 6).blk t).view.emb (ix2 (0 : Fin 1) q)) = bo (ix1 q)
    rw [h6]
    exact hbo q

/-- An index of the result array is in point t's block iff its row is one of the block's rows. -/
theorem mem_blk (t : Fin cfg3.N) (i : S50000x1.Idx) :
    i ∈ ((cfg3.win 7).blk t).view.set ↔ ∀ a : Fin 2, win3_7.index t a * S5000x1.size a ≤ (i a).val ∧ (i a).val < win3_7.index t a * S5000x1.size a + S5000x1.size a := by
  show i ∈ ((View.whole main_v39).slice (win3_7.rect t)).set ↔ _
  rw [View.set_slice_whole, Rect.mem_set_unit]
  exact Iff.rfl

/-- The blocks tile the rows: row i is in the block of point i / 5000. -/
theorem covered (i : S50000x1.Idx) :
    ∃ t : Fin cfg3.N, (cfg3.win 7).flush t = true ∧ i ∈ ((cfg3.win 7).blk t).view.set := by
  have hi0 : (i 0).val < 50000 := (i 0).isLt
  have hi1 : (i 1).val < 1 := (i 1).isLt
  have hN : cfg3.N = 10 := N_3
  have ht : (i 0).val / 5000 < cfg3.N := by rw [hN]; omega
  obtain ⟨e00, e01, e10, e11, e20, e21, e30, e31, e40, e41, e50, e51, e60, e61, e70, e71⟩ := idx_facts ⟨(i 0).val / 5000, ht⟩
  refine ⟨⟨(i 0).val / 5000, ht⟩, flush3_7 _, ?_⟩
  rw [mem_blk]
  intro a
  match a with
  | ⟨0, _⟩ =>
    show win3_7.index ⟨(i 0).val / 5000, ht⟩ (0 : Fin 2) * 5000 ≤ (i 0).val ∧ (i 0).val < win3_7.index ⟨(i 0).val / 5000, ht⟩ (0 : Fin 2) * 5000 + 5000
    have e : win3_7.index ⟨(i 0).val / 5000, ht⟩ (0 : Fin 2) = (i 0).val / 5000 := e70
    omega
  | ⟨1, _⟩ =>
    show win3_7.index ⟨(i 0).val / 5000, ht⟩ (1 : Fin 2) * 1 ≤ (i 1).val ∧ (i 1).val < win3_7.index ⟨(i 0).val / 5000, ht⟩ (1 : Fin 2) * 1 + 1
    omega

/-- THE ARRAY after the region: the projected layer of the arrays the region finds. -/
theorem final (c : Dev nD)
    (A E : FVec Ideal Cert.ReferenceIdeal.S50000x128 .f32)
    (W : FVec Ideal Cert.ReferenceIdeal.S256x128 .f32) (bv : FVec Ideal Cert.ReferenceIdeal.S128 .f32)
    (Wo : FVec Ideal Cert.ReferenceIdeal.S128x1 .f32) (bo : FVec Ideal Cert.ReferenceIdeal.S1 .f32)
    (hA : V c main_v34 = A) (hE : V c main_v10 = E) (hWo : V c main_arg10 = Wo)
    (hwt : ∀ k q : Fin 128, V c main_v35 (ix2 k q) = W (ix2 (⟨k.val, by omega⟩ : Fin 256) q))
    (hwl : ∀ k q : Fin 128, V c main_v36 (ix2 k q) = W (ix2 (⟨128 + k.val, by omega⟩ : Fin 256) q))
    (hb : ∀ q : Fin 128, V c main_v37 (ix2 0 q) = bv (ix1 q))
    (hbo : ∀ q : Fin 1, V c main_v38 (ix2 0 q) = bo (ix1 q)) :
    (dat3 V c).arrAt 7 cfg3.N
      = Cert.ReferenceIdeal.Layers.proj (F := Ideal) (Cert.ReferenceIdeal.Layers.layer (F := Ideal) A E W bv) Wo bo := by
  subst hA hE hWo
  exact (dat3 V c).arrAt_eq_of_cover 7 _ (fun t _ => flushed_eq V c t W bv bo hwt hwl hb hbo) (fun i => covered i)

end Cert.KernelIdeal.Reg3

end
-- ==== Proof.Chain.lean ====
/-
  The kernel's buffers, boundary by boundary, as the reference's stages of the ARGUMENTS.

  @main alternates stretches of host operations with four launched regions.  Writing W1, …, W9 for the buffer
  contents at the nine boundaries after the launch: a stretch of host operations leaves at each buffer it writes its
  operation's function of the contents before it and keeps every other buffer; a region leaves at its result array the
  layer's function of the arrays it found (the four region modules) and keeps every buffer that is not one of its
  arrays, and its input arrays too.  Walking from the launch memory to the last boundary, each buffer a later step
  reads is identified with one of the reference's read-back stages of the thirteen arguments:

    the source and target index vectors (rows 0 and 1 of the edge list, flattened);
    x = relu(nodes · W_node + b_node) and e = relu(edges · W_edge + b_edge) — regions 0 and 1;
    m_e = the rows of e summed into their target nodes, m_x = the rows of x gathered at the sources and summed into
    the targets: the same gather and scatter-add operations in both programs, applied to equal arrays;
    x' = relu(concat(m_x, m_e) · W1 + b1) — region 2, which is handed the two halves of W1 as separate matrices;
    m_x' from x' likewise; the scores relu(concat(m_x', m_e) · W2 + b2) · W_out + b_out — region 3;
    the softmax of the flattened scores — the same host operations in both programs.

  So the result buffer ends at the reference's own result stage of the kernel's arguments.
-/
import proofs.«150780_j73443940762207_2_alg».proof.Proof.KernelIdealFrameP
import proofs.«150780_j73443940762207_2_alg».proof.Proof.Gen.ReferenceIdeal.Read
import proofs.«150780_j73443940762207_2_alg».proof.Proof.RefLayers
import proofs.«150780_j73443940762207_2_alg».proof.Proof.Region0
import proofs.«150780_j73443940762207_2_alg».proof.Proof.Region1
import proofs.«150780_j73443940762207_2_alg».proof.Proof.Region2
import proofs.«150780_j73443940762207_2_alg».proof.Proof.Region3
import proofs.«150780_j73443940762207_2_alg».proof.Proof.LibRows

set_option maxRecDepth 16384
-- the notations below stand for the launch contents of the argument arrays on core c: terms over the section's variables
set_option quotPrecheck false

noncomputable section

namespace Cert.KernelIdeal.Chain

open Cert.KernelIdeal Cert.KernelIdeal.Gen Cert.KernelIdeal.GenP
open Idealize.ShloMosaic Idealize.ShloMosaic.TcCoe Idealize.ShloMosaic.ValueIdx Idealize.SL.Sem Idealize.ShloMosaic.StableHlo
open Cert.ReferenceIdeal.Read (val_main_v1 val_main_v3 val_main_v8 val_main_v13 val_main_v23 val_main_v26 val_main_v32
  val_main_v42 val_main_v45 val_main_v51 val_main_v55 val_main_v66)

variable (m : (ℓ : Loc nD τ sig) → Buf (Elt Ideal) ℓ) (ρ : Dev nD → PrngReg) (c : Dev nD)

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)
local notation "A12" => m ((c : Thread nD τ).loc main_arg12)

/-! ## Boundary 1: after the first stretch (the index vectors, the first bias row) -/

theorem W1_arg0 : W1 m ρ c (Proc.devRef .tc main_arg0) = A0 := by dsimp only [W1, hostOps0]; after_results; try rfl
theorem W1_arg1 : W1 m ρ c (Proc.devRef .tc main_arg1) = A1 := by dsimp only [W1, hostOps0]; after_results; try rfl
theorem W1_arg2 : W1 m ρ c (Proc.devRef .tc main_arg2) = A2 := by dsimp only [W1, hostOps0]; after_results; try rfl
theorem W1_arg4 : W1 m ρ c (Proc.devRef .tc main_arg4) = A4 := by dsimp only [W1, hostOps0]; after_results; try rfl
theorem W1_arg5 : W1 m ρ c (Proc.devRef .tc main_arg5) = A5 := by dsimp only [W1, hostOps0]; after_results; try rfl
theorem W1_arg6 : W1 m ρ c (Proc.devRef .tc main_arg6) = A6 := by dsimp only [W1, hostOps0]; after_results; try rfl
theorem W1_arg7 : W1 m ρ c (Proc.devRef .tc main_arg7) = A7 := by dsimp only [W1, hostOps0]; after_results; try rfl
theorem W1_arg8 : W1 m ρ c (Proc.devRef .tc main_arg8) = A8 := by dsimp only [W1, hostOps0]; after_results; try rfl
theorem W1_arg9 : W1 m ρ c (Proc.devRef .tc main_arg9) = A9 := by dsimp only [W1, hostOps0]; after_results; try rfl
theorem W1_arg10 : W1 m ρ c (Proc.devRef .tc main_arg10) = A10 := by dsimp only [W1, hostOps0]; after_results; try rfl
theorem W1_arg11 : W1 m ρ c (Proc.devRef .tc main_arg11) = A11 := by dsimp only [W1, hostOps0]; after_results; try rfl
/-- The source indices: row 0 of the edge list, flattened. -/
theorem W1_v1 : W1 m ρ c (Proc.devRef .tc main_v1) = val_main_v1 (F := Ideal) A12 := by
  dsimp only [W1, hostOps0]; after_results; try rfl
/-- The target indices: row 1 of the edge list, flattened. -/
theorem W1_v3 : W1 m ρ c (Proc.devRef .tc main_v3) = val_main_v3 (F := Ideal) A12 := by
  dsimp only [W1, hostOps0]; after_results; try rfl
/-- The node transform's bias as a row. -/
theorem W1_v4 (q : Fin 128) : W1 m ρ c (Proc.devRef .tc main_v4) (ix2 0 q) = A3 (ix1 q) := by
  have e : W1 m ρ c (Proc.devRef .tc main_v4) = shapeCast S1x128 A3 shapeCasts_S128_S1x128 := by
    dsimp only [W1, hostOps0]; after_results; try rfl
  rw [e]; exact Cert.Lib.Rows.shapeCast_vec_row_apply _ _ q

/-! ## Boundary 2: after region 0 (the node transform) -/

/-- x = relu(nodes · W_node + b_node): the reference's stage. -/
theorem W2_v5 : W2 m ρ c (Proc.devRef .tc main_v5) = val_main_v8 (F := Ideal) A0 A2 A3 :=
  (W2_arr m ρ c 3).trans (Cert.KernelIdeal.Reg0.final (V1 m ρ) c A0 A2 A3 (W1_arg0 m ρ c) (W1_arg2 m ρ c) (W1_v4 m ρ c))
theorem W2_arg1 : W2 m ρ c (Proc.devRef .tc main_arg1) = A1 := (W2_of_ne m ρ c main_arg1 (by decide)).trans (W1_arg1 m ρ c)
theorem W2_arg4 : W2 m ρ c (Proc.devRef .tc main_arg4) = A4 := (W2_of_ne m ρ c main_arg4 (by decide)).trans (W1_arg4 m ρ c)
theorem W2_arg5 : W2 m ρ c (Proc.devRef .tc main_arg5) = A5 := (W2_of_ne m ρ c main_arg5 (by decide)).trans (W1_arg5 m ρ c)
theorem W2_arg6 : W2 m ρ c (Proc.devRef .tc main_arg6) = A6 := (W2_of_ne m ρ c main_arg6 (by decide)).trans (W1_arg6 m ρ c)
theorem W2_arg7 : W2 m ρ c (Proc.devRef .tc main_arg7) = A7 := (W2_of_ne m ρ c main_arg7 (by decide)).trans (W1_arg7 m ρ c)
theorem W2_arg8 : W2 m ρ c (Proc.devRef .tc main_arg8) = A8 := (W2_of_ne m ρ c main_arg8 (by decide)).trans (W1_arg8 m ρ c)
theorem W2_arg9 : W2 m ρ c (Proc.devRef .tc main_arg9) = A9 := (W2_of_ne m ρ c main_arg9 (by decide)).trans (W1_arg9 m ρ c)
theorem W2_arg10 : W2 m ρ c (Proc.devRef .tc main_arg10) = A10 := (W2_of_ne m ρ c main_arg10 (by decide)).trans (W1_arg10 m ρ c)
theorem W2_arg11 : W2 m ρ c (Proc.devRef .tc main_arg11) = A11 := (W2_of_ne m ρ c main_arg11 (by decide)).trans (W1_arg11 m ρ c)
theorem W2_v1 : W2 m ρ c (Proc.devRef .tc main_v1) = val_main_v1 (F := Ideal) A12 := (W2_of_ne m ρ c main_v1 (by decide)).trans (W1_v1 m ρ c)
theorem W2_v3 : W2 m ρ c (Proc.devRef .tc main_v3) = val_main_v3 (F := Ideal) A12 := (W2_of_ne m ρ c main_v3 (by decide)).trans (W1_v3 m ρ c)

/-! ## Boundary 3: after the second stretch (the second bias row) -/

/-- The edge transform's bias as a row. -/
theorem W3_v6 (q : Fin 128) : W3 m ρ c (Proc.devRef .tc main_v6) (ix2 0 q) = A5 (ix1 q) := by
  have e : W3 m ρ c (Proc.devRef .tc main_v6) = shapeCast S1x128 (W2 m ρ c (Proc.devRef .tc main_arg5)) shapeCasts_S128_S1x128 := by
    dsimp only [W3, hostOps1]; after_results; try rfl
  rw [e, W2_arg5 m ρ c]; exact Cert.Lib.Rows.shapeCast_vec_row_apply _ _ q
theorem W3_arg1 : W3 m ρ c (Proc.devRef .tc main_arg1) = A1 := by dsimp only [W3, hostOps1]; after_results; exact W2_arg1 m ρ c
theorem W3_arg4 : W3 m ρ c (Proc.devRef .tc main_arg4) = A4 := by dsimp only [W3, hostOps1]; after_results; exact W2_arg4 m ρ c
theorem W3_arg6 : W3 m ρ c (Proc.devRef .tc main_arg6) = A6 := by dsimp only [W3, hostOps1]; after_results; exact W2_arg6 m ρ c
theorem W3_arg7 : W3 m ρ c (Proc.devRef .tc main_arg7) = A7 := by dsimp only [W3, hostOps1]; after_results; exact W2_arg7 m ρ c
theorem W3_arg8 : W3 m ρ c (Proc.devRef .tc main_arg8) = A8 := by dsimp only [W3, hostOps1]; after_results; exact W2_arg8 m ρ c
theorem W3_arg9 : W3 m ρ c (Proc.devRef .tc main_arg9) = A9 := by dsimp only [W3, hostOps1]; after_results; exact W2_arg9 m ρ c
theorem W3_arg10 : W3 m ρ c (Proc.devRef .tc main_arg10) = A10 := by dsimp only [W3, hostOps1]; after_results; exact W2_arg10 m ρ c
theorem W3_arg11 : W3 m ρ c (Proc.devRef .tc main_arg11) = A11 := by dsimp only [W3, hostOps1]; after_results; exact W2_arg11 m ρ c
theorem W3_v1 : W3 m ρ c (Proc.devRef .tc main_v1) = val_main_v1 (F := Ideal) A12 := by dsimp only [W3, hostOps1]; after_results; exact W2_v1 m ρ c
theorem W3_v3 : W3 m ρ c (Proc.devRef .tc main_v3) = val_main_v3 (F := Ideal) A12 := by dsimp only [W3, hostOps1]; after_results; exact W2_v3 m ρ c
theorem W3_v5 : W3 m ρ c (Proc.devRef .tc main_v5) = val_main_v8 (F := Ideal) A0 A2 A3 := by dsimp only [W3, hostOps1]; after_results; exact W2_v5 m ρ c

/-! ## Boundary 4: after region 1 (the edge transform) -/

/-- e = relu(edges · W_edge + b_edge): the reference's stage. -/
theorem W4_v7 : W4 m ρ c (Proc.devRef .tc main_v7) = val_main_v13 (F := Ideal) A1 A4 A5 :=
  (W4_arr m ρ c 3).trans (Cert.KernelIdeal.Reg1.final (V3 m ρ) c A1 A4 A5 (W3_arg1 m ρ c) (W3_arg4 m ρ c) (W3_v6 m ρ c))
theorem W4_arg6 : W4 m ρ c (Proc.devRef .tc main_arg6) = A6 := (W4_of_ne m ρ c main_arg6 (by decide)).trans (W3_arg6 m ρ c)
theorem W4_arg7 : W4 m ρ c (Proc.devRef .tc main_arg7) = A7 := (W4_of_ne m ρ c main_arg7 (by decide)).trans (W3_arg7 m ρ c)
theorem W4_arg8 : W4 m ρ c (Proc.devRef .tc main_arg8) = A8 := (W4_of_ne m ρ c main_arg8 (by decide)).trans (W3_arg8 m ρ c)
theorem W4_arg9 : W4 m ρ c (Proc.devRef .tc main_arg9) = A9 := (W4_of_ne m ρ c main_arg9 (by decide)).trans (W3_arg9 m ρ c)
theorem W4_arg10 : W4 m ρ c (Proc.devRef .tc main_arg10) = A10 := (W4_of_ne m ρ c main_arg10 (by decide)).trans (W3_arg10 m ρ c)
theorem W4_arg11 : W4 m ρ c (Proc.devRef .tc main_arg11) = A11 := (W4_of_ne m ρ c main_arg11 (by decide)).trans (W3_arg11 m ρ c)
theorem W4_v1 : W4 m ρ c (Proc.devRef .tc main_v1) = val_main_v1 (F := Ideal) A12 := (W4_of_ne m ρ c main_v1 (by decide)).trans (W3_v1 m ρ c)
theorem W4_v3 : W4 m ρ c (Proc.devRef .tc main_v3) = val_main_v3 (F := Ideal) A12 := (W4_of_ne m ρ c main_v3 (by decide)).trans (W3_v3 m ρ c)
theorem W4_v5 : W4 m ρ c (Proc.devRef .tc main_v5) = val_main_v8 (F := Ideal) A0 A2 A3 := (W4_of_ne m ρ c main_v5 (by decide)).trans (W3_v5 m ρ c)

/-! ## Boundary 5: after the third stretch (the two aggregations, the halves of W1, its bias row) -/

/-- m_e: the rows of e summed into their target nodes — the reference's scatter-add of the same arrays. -/
theorem W5_v10 : W5 m ρ c (Proc.devRef .tc main_v10) = val_main_v26 (F := Ideal) A1 A4 A5 A12 := by
  dsimp only [W5, hostOps2]; after_results; rw [W4_v3 m ρ c, W4_v7 m ρ c]; rfl
set_option maxHeartbeats 4000000 in
/-- m_x: the rows of x gathered at the (wrapped) sources and summed into the targets. -/
theorem W5_v20 : W5 m ρ c (Proc.devRef .tc main_v20) = val_main_v23 (F := Ideal) A0 A2 A3 A12 := by
  dsimp only [W5, hostOps2]; after_results; rw [W4_v1 m ρ c, W4_v3 m ρ c, W4_v5 m ρ c]; rfl
/-- The upper 128 rows of W1. -/
theorem W5_v21 (k q : Fin 128) : W5 m ρ c (Proc.devRef .tc main_v21) (ix2 k q) = A6 (ix2 (⟨k.val, by omega⟩ : Fin 256) q) := by
  have e : W5 m ρ c (Proc.devRef .tc main_v21)
      = extractStridedSlice S128x128 ![0, 0] (W4 m ρ c (Proc.devRef .tc main_arg6)) slices_S256x128_S128x128_0_0 := by
    dsimp only [W5, hostOps2]; after_results; try rfl
  rw [e, W4_arg6 m ρ c, Cert.Lib.Rows.slice_rows_apply _ _ k q (by omega)]
  exact congrArg (fun r : Fin 256 => A6 (ix2 r q)) (Fin.ext (Nat.zero_add k.val))
/-- The lower 128 rows of W1. -/
theorem W5_v22 (k q : Fin 128) : W5 m ρ c (Proc.devRef .tc main_v22) (ix2 k q) = A6 (ix2 (⟨128 + k.val, by omega⟩ : Fin 256) q) := by
  have e : W5 m ρ c (Proc.devRef .tc main_v22)
      = extractStridedSlice S128x128 ![128, 0] (W4 m ρ c (Proc.devRef .tc main_arg6)) slices_S256x128_S128x128_128_0 := by
    dsimp only [W5, hostOps2]; after_results; try rfl
  rw [e, W4_arg6 m ρ c, Cert.Lib.Rows.slice_rows_apply _ _ k q (by omega)]
/-- The first layer's bias as a row. -/
theorem W5_v23 (q : Fin 128) : W5 m ρ c (Proc.devRef .tc main_v23) (ix2 0 q) = A7 (ix1 q) := by
  have e : W5 m ρ c (Proc.devRef .tc main_v23) = shapeCast S1x128 (W4 m ρ c (Proc.devRef .tc main_arg7)) shapeCasts_S128_S1x128 := by
    dsimp only [W5, hostOps2]; after_results; try rfl
  rw [e, W4_arg7 m ρ c]; exact Cert.Lib.Rows.shapeCast_vec_row_apply _ _ q
theorem W5_arg8 : W5 m ρ c (Proc.devRef .tc main_arg8) = A8 := by dsimp only [W5, hostOps2]; after_results; exact W4_arg8 m ρ c
theorem W5_arg9 : W5 m ρ c (Proc.devRef .tc main_arg9) = A9 := by dsimp only [W5, hostOps2]; after_results; exact W4_arg9 m ρ c
theorem W5_arg10 : W5 m ρ c (Proc.devRef .tc main_arg10) = A10 := by dsimp only [W5, hostOps2]; after_results; exact W4_arg10 m ρ c
theorem W5_arg11 : W5 m ρ c (Proc.devRef .tc main_arg11) = A11 := by dsimp only [W5, hostOps2]; after_results; exact W4_arg11 m ρ c
theorem W5_v1 : W5 m ρ c (Proc.devRef .tc main_v1) = val_main_v1 (F := Ideal) A12 := by dsimp only [W5, hostOps2]; after_results; exact W4_v1 m ρ c
theorem W5_v3 : W5 m ρ c (Proc.devRef .tc main_v3) = val_main_v3 (F := Ideal) A12 := by dsimp only [W5, hostOps2]; after_results; exact W4_v3 m ρ c

/-! ## Boundary 6: after region 2 (the first graph-convolution combine) -/

/-- x' = relu(concat(m_x, m_e) · W1 + b1): the reference's stage. -/
theorem W6_v24 : W6 m ρ c (Proc.devRef .tc main_v24) = val_main_v32 (F := Ideal) A0 A1 A2 A3 A4 A5 A6 A7 A12 :=
  (W6_arr m ρ c 5).trans
    ((Cert.KernelIdeal.Reg2.final (V5 m ρ) c _ _ A6 A7 (W5_v20 m ρ c) (W5_v10 m ρ c) (W5_v21 m ρ c) (W5_v22 m ρ c) (W5_v23 m ρ c)).trans
      (Cert.ReferenceIdeal.Layers.v32_eq (F := Ideal) A0 A1 A2 A3 A4 A5 A6 A7 A12).symm)
/-- m_e is an input array of region 2: it leaves the region as it entered. -/
theorem W6_v10 : W6 m ρ c (Proc.devRef .tc main_v10) = val_main_v26 (F := Ideal) A1 A4 A5 A12 :=
  (W6_arr m ρ c 1).trans (((dat2 (V5 m ρ) c).arrAt_in 1 rfl _).trans ((A_eq2 (V5 m ρ) c 1).trans (W5_v10 m ρ c)))
theorem W6_arg8 : W6 m ρ c (Proc.devRef .tc main_arg8) = A8 := (W6_of_ne m ρ c main_arg8 (by decide)).trans (W5_arg8 m ρ c)
theorem W6_arg9 : W6 m ρ c (Proc.devRef .tc main_arg9) = A9 := (W6_of_ne m ρ c main_arg9 (by decide)).trans (W5_arg9 m ρ c)
theorem W6_arg10 : W6 m ρ c (Proc.devRef .tc main_arg10) = A10 := (W6_of_ne m ρ c main_arg10 (by decide)).trans (W5_arg10 m ρ c)
theorem W6_arg11 : W6 m ρ c (Proc.devRef .tc main_arg11) = A11 := (W6_of_ne m ρ c main_arg11 (by decide)).trans (W5_arg11 m ρ c)
theorem W6_v1 : W6 m ρ c (Proc.devRef .tc main_v1) = val_main_v1 (F := Ideal) A12 := (W6_of_ne m ρ c main_v1 (by decide)).trans (W5_v1 m ρ c)
theorem W6_v3 : W6 m ρ c (Proc.devRef .tc main_v3) = val_main_v3 (F := Ideal) A12 := (W6_of_ne m ρ c main_v3 (by decide)).trans (W5_v3 m ρ c)

/-! ## Boundary 7: after the fourth stretch (the second aggregation, the halves of W2, its bias row, the output bias) -/

set_option maxHeartbeats 4000000 in
/-- m_x': the rows of x' gathered at the sources and summed into the targets. -/
theorem W7_v34 : W7 m ρ c (Proc.devRef .tc main_v34) = val_main_v42 (F := Ideal) A0 A1 A2 A3 A4 A5 A6 A7 A12 := by
  dsimp only [W7, hostOps3]; after_results; rw [W6_v1 m ρ c, W6_v3 m ρ c, W6_v24 m ρ c]; rfl
/-- m_e again: the reference recomputes it, by the same operations of the same arrays. -/
theorem W7_v10 : W7 m ρ c (Proc.devRef .tc main_v10) = val_main_v45 (F := Ideal) A1 A4 A5 A12 := by
  dsimp only [W7, hostOps3]; after_results
  exact (W6_v10 m ρ c).trans (Cert.ReferenceIdeal.Layers.v45_eq (F := Ideal) A1 A4 A5 A12).symm
/-- The upper 128 rows of W2. -/
theorem W7_v35 (k q : Fin 128) : W7 m ρ c (Proc.devRef .tc main_v35) (ix2 k q) = A8 (ix2 (⟨k.val, by omega⟩ : Fin 256) q) := by
  have e : W7 m ρ c (Proc.devRef .tc main_v35)
      = extractStridedSlice S128x128 ![0, 0] (W6 m ρ c (Proc.devRef .tc main_arg8)) slices_S256x128_S128x128_0_0 := by
    dsimp only [W7, hostOps3]; after_results; try rfl
  rw [e, W6_arg8 m ρ c, Cert.Lib.Rows.slice_rows_apply _ _ k q (by omega)]
  exact congrArg (fun r : Fin 256 => A8 (ix2 r q)) (Fin.ext (Nat.zero_add k.val))
/-- The lower 128 rows of W2. -/
theorem W7_v36 (k q : Fin 128) : W7 m ρ c (Proc.devRef .tc main_v36) (ix2 k q) = A8 (ix2 (⟨128 + k.val, by omega⟩ : Fin 256) q) := by
  have e : W7 m ρ c (Proc.devRef .tc main_v36)
      = extractStridedSlice S128x128 ![128, 0] (W6 m ρ c (Proc.devRef .tc main_arg8)) slices_S256x128_S128x128_128_0 := by
    dsimp only [W7, hostOps3]; after_results; try rfl
  rw [e, W6_arg8 m ρ c, Cert.Lib.Rows.slice_rows_apply _ _ k q (by omega)]
/-- The second layer's bias as a row. -/
theorem W7_v37 (q : Fin 128) : W7 m ρ c (Proc.devRef .tc main_v37) (ix2 0 q) = A9 (ix1 q) := by
  have e : W7 m ρ c (Proc.devRef .tc main_v37) = shapeCast S1x128 (W6 m ρ c (Proc.devRef .tc main_arg9)) shapeCasts_S128_S1x128 := by
    dsimp only [W7, hostOps3]; after_results; try rfl
  rw [e, W6_arg9 m ρ c]; exact Cert.Lib.Rows.shapeCast_vec_row_apply _ _ q
/-- The output bias as a [1, 1] array. -/
theorem W7_v38 (q : Fin 1) : W7 m ρ c (Proc.devRef .tc main_v38) (ix2 0 q) = A11 (ix1 q) := by
  have e : W7 m ρ c (Proc.devRef .tc main_v38) = shapeCast S1x1 (W6 m ρ c (Proc.devRef .tc main_arg11)) shapeCasts_S1_S1x1 := by
    dsimp only [W7, hostOps3]; after_results; try rfl
  rw [e, W6_arg11 m ρ c]; exact Cert.Lib.Rows.shapeCast_vec_row_apply _ _ q
theorem W7_arg10 : W7 m ρ c (Proc.devRef .tc main_arg10) = A10 := by dsimp only [W7, hostOps3]; after_results; exact W6_arg10 m ρ c

/-! ## Boundary 8: after region 3 (the second combine and the output projection) -/

/-- The scores relu(concat(m_x', m_e) · W2 + b2) · W_out + b_out: the reference's stage. -/
theorem W8_v39 : W8 m ρ c (Proc.devRef .tc main_v39)
    = val_main_v55 (F := Ideal) A0 A1 A2 A3 A4 A5 A6 A7 A8 A9 A10 A11 A12 :=
  (W8_arr m ρ c 7).trans
    ((Cert.KernelIdeal.Reg3.final (V7 m ρ) c _ _ A8 A9 A10 A11 (W7_v34 m ρ c) (W7_v10 m ρ c) (W7_arg10 m ρ c)
        (W7_v35 m ρ c) (W7_v36 m ρ c) (W7_v37 m ρ c) (W7_v38 m ρ c)).trans
      (by rw [Cert.ReferenceIdeal.Layers.v55_eq, Cert.ReferenceIdeal.Layers.v51_eq]))

/-! ## Boundary 9: after the last stretch (the softmax of the flattened scores) -/

set_option maxHeartbeats 4000000 in
/-- THE RESULT: the same softmax operations on equal scores — the reference's result stage of the arguments. -/
theorem W9_v50 : W9 m ρ c (Proc.devRef .tc main_v50)
    = val_main_v66 (F := Ideal) A0 A1 A2 A3 A4 A5 A6 A7 A8 A9 A10 A11 A12 := by
  dsimp only [W9, hostOps4]; after_results; rw [W8_v39 m ρ c]; rfl

end Cert.KernelIdeal.Chain

end
-- ==== Proof.lean ====
/-
  The certificate of a two-layer message-passing network scored by a softmax, as four matrix-unit kernels among host
  gathers and scatter-adds, against its jnp reference.

  Both programs compute, from node features, edge features and an edge list,
      x  = relu(nodes · W_node + b_node),        e = relu(edges · W_edge + b_edge),
      m_e = rows of e summed into their target nodes,
      m_x = rows of x gathered at the source nodes and summed into the target nodes,
      x' = relu(concat(m_x, m_e) · W1 + b1),    m_x' from x' likewise,
      scores = relu(concat(m_x', m_e) · W2 + b2) · W_out + b_out,     result = softmax(scores).
  The kernel computes the four dense steps on blocks of rows on the matrix unit — operands narrowed to a smaller
  float format, which is the identity at the ideal values, products taken into a zero accumulator — and splits each
  product against a [256, 128] matrix into the two products against its upper and lower halves; the gathers, the
  scatter-adds and the softmax are the same host operations in both programs.  At the ideal values (floats extended
  reals, every operation exact) a block of rows of a product is rows of the whole product, and a sum over 256 joined
  columns is the sum over the first 128 plus the sum over the last 128, which needs only that + is commutative and
  associative: so no finiteness of the inputs is used, and every intermediate array of the kernel IS the reference's
  corresponding stage of the arguments.  The three frames are the generated ones (the reference's from its generated
  run); the ideal pass rewrote nothing, so there is nothing to preserve.
-/
import proofs.«150780_j73443940762207_2_alg».proof.Defs
import proofs.«150780_j73443940762207_2_alg».proof.Proof.Gen.Kernel
import proofs.«150780_j73443940762207_2_alg».proof.Proof.KernelFrameP
import proofs.«150780_j73443940762207_2_alg».proof.Proof.Gen.KernelIdeal
import proofs.«150780_j73443940762207_2_alg».proof.Proof.KernelIdealFrameP
import proofs.«150780_j73443940762207_2_alg».proof.Proof.Gen.ReferenceIdeal
import proofs.«150780_j73443940762207_2_alg».proof.Proof.Gen.Pre_finite_inputs
import proofs.«150780_j73443940762207_2_alg».proof.Proof.Gen.ReferenceIdeal.Run
import proofs.«150780_j73443940762207_2_alg».proof.Proof.Gen.ReferenceIdeal.Read
import proofs.«150780_j73443940762207_2_alg».proof.Proof.KRun
import proofs.«150780_j73443940762207_2_alg».proof.Proof.Chain
import Idealize.ShloMosaic.Adequacy
import Idealize.ShloMosaic.Init

noncomputable section

namespace Cert.Proof

open Idealize.ShloMosaic Idealize.SL.Sem

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's result buffer ends at the reference's result stage of the kernel's arguments
    (the walk through its nine boundaries), the reference's at the same stage of its own arguments (its generated
    run): from memories agreeing on the arguments these are one array. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Chain.W9_v50 m ρ c), (h c).2⟩)
    (Cert.KernelIdeal.KRun.run (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v66_eq, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  frame_ri,
  trivial,
  algebraic⟩

end Cert.Proof

end
